-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x8 : Shape := ⟨3, ![32, 4096, 8]⟩
abbrev S8x8 : Shape := ⟨2, ![8, 8]⟩
abbrev S8 : Shape := ⟨1, ![8]⟩
abbrev S512x8 : Shape := ⟨2, ![512, 8]⟩
abbrev S512 : Shape := ⟨1, ![512]⟩
abbrev S8x512 : Shape := ⟨2, ![8, 512]⟩
abbrev S_ : Shape := ⟨0, ![]⟩

class Facts : Prop where
  bcast_S_S32x4096x8 : S_.BroadcastsInDim S32x4096x8 (![] : Fin 0 → Fin S32x4096x8.rank)
  reducesTo_S32x4096x8_S_d0_1_2 : S32x4096x8.ReducesTo [0, 1, 2] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S512x8 : S_.BroadcastsInDim S512x8 (![] : Fin 0 → Fin S512x8.rank)
  reducesTo_S512x8_S_d0_1 : S512x8.ReducesTo [0, 1] S_
  bcast_S_S512 : S_.BroadcastsInDim S512 (![] : Fin 0 → Fin S512.rank)
  reducesTo_S512_S_d0 : S512.ReducesTo [0] S_
  bcast_S_S8x512 : S_.BroadcastsInDim S8x512 (![] : Fin 0 → Fin S8x512.rank)
  reducesTo_S8x512_S_d0_1 : S8x512.ReducesTo [0, 1] S_

variable [Facts]

def fn_part3 {F : FTy → Type} [FloatOps F] (main_arg11 : FVec F S8 .f32) (main_arg12 : FVec F S8 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg7 : FVec F S8x512 .f32) (main_arg8 : FVec F S8 .f32) (main_arg9 : FVec F S8 .f32) (main_arg10 : FVec F S8 .f32) (main_arg11 : FVec F S8 .f32) (main_arg12 : FVec F S8 .f32) (main_v33 : IVec S_ 1) : IVec S_ 1 :=
  let main_v34 : FVec F S8x512 .f32 := Host.absf main_arg7
  let main_cst_12 : FVec F S_ .f32 := constant S_ .f32 0x7F800000#32
  let main_v35 : FVec F S8x512 .f32 := broadcastInDim S8x512 ![] bcast_S_S8x512 main_cst_12
  let main_v36 : IVec S8x512 1 := cmpf .olt main_v34 main_v35
  let main_c_13 : IVec S_ 1 := constantI S_ 1 1#1
  let main_v37 : IVec S_ 1 := (fun x v => Host.reduce IntOp.andi x v reducesTo_S8x512_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_v48 main_v49 main_v50

def fn_part1 {F : FTy → Type} [FloatOps F] (main_arg4 : FVec F S8 .f32) (main_arg5 : FVec F S512x8 .f32) (main_arg6 : FVec F S512 .f32) (main_arg7 : FVec F S8x512 .f32) (main_arg8 : FVec F S8 .f32) (main_arg9 : FVec F S8 .f32) (main_arg10 : FVec F S8 .f32) (main_arg11 : FVec F S8 .f32) (main_arg12 : FVec F S8 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S512x8 .f32 := Host.absf main_arg5
  let main_cst_8 : FVec F S_ .f32 := constant S_ .f32 0x7F800000#32
  let main_v25 : FVec F S512x8 .f32 := broadcastInDim S512x8 ![] bcast_S_S512x8 main_cst_8
  let main_v26 : IVec S512x8 1 := cmpf .olt main_v24 main_v25
  let main_c_9 : IVec S_ 1 := constantI S_ 1 1#1
  let main_v27 : IVec S_ 1 := (fun x v => Host.reduce IntOp.andi x v reducesTo_S512x8_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x4096x8 .f32) (main_arg1 : FVec F S8x8 .f32) (main_arg2 : FVec F S8 .f32) (main_arg3 : FVec F S8x8 .f32) (main_arg4 : FVec F S8 .f32) (main_arg5 : FVec F S512x8 .f32) (main_arg6 : FVec F S512 .f32) (main_arg7 : FVec F S8x512 .f32) (main_arg8 : FVec F S8 .f32) (main_arg9 : FVec F S8 .f32) (main_arg10 : FVec F S8 .f32) (main_arg11 : FVec F S8 .f32) (main_arg12 : FVec F S8 .f32) : IVec S_ 1 :=
  let main_v0 : FVec F S32x4096x8 .f32 := Host.absf main_arg0
  let main_cst : FVec F S_ .f32 := constant S_ .f32 0x7F800000#32
  let main_v1 : FVec F S32x4096x8 .f32 := broadcastInDim S32x4096x8 ![] bcast_S_S32x4096x8 main_cst
  let main_v2 : IVec S32x4096x8 1 := cmpf .olt main_v0 main_v1
  let main_c : IVec S_ 1 := constantI S_ 1 1#1
  let main_v3 : IVec S_ 1 := (fun x v => Host.reduce IntOp.andi x v reducesTo_S32x4096x8_S_d0_1_2 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_arg9 main_arg10 main_arg11 main_arg12 main_v13 main_v16
-- ==== Kernel.lean ====
abbrev S32x4096x8 : Shape := ⟨3, ![32, 4096, 8]⟩
abbrev S8x8 : Shape := ⟨2, ![8, 8]⟩
abbrev S8 : Shape := ⟨1, ![8]⟩
abbrev S512x8 : Shape := ⟨2, ![512, 8]⟩
abbrev S512 : Shape := ⟨1, ![512]⟩
abbrev S8x512 : Shape := ⟨2, ![8, 512]⟩
abbrev S8192x128 : Shape := ⟨2, ![8192, 128]⟩
abbrev S16x16 : Shape := ⟨2, ![16, 16]⟩
abbrev S_ : Shape := ⟨0, ![]⟩
abbrev S16x1x16x1 : Shape := ⟨4, ![16, 1, 16, 1]⟩
abbrev S1x8x1x8 : Shape := ⟨4, ![1, 8, 1, 8]⟩
abbrev S16x8x16x8 : Shape := ⟨4, ![16, 8, 16, 8]⟩
abbrev S128x128 : Shape := ⟨2, ![128, 128]⟩
abbrev S1x8 : Shape := ⟨2, ![1, 8]⟩
abbrev S1x8x1x512 : Shape := ⟨4, ![1, 8, 1, 512]⟩
abbrev S16x8x16x512 : Shape := ⟨4, ![16, 8, 16, 512]⟩
abbrev S128x8192 : Shape := ⟨2, ![128, 8192]⟩
abbrev S1x512x1x8 : Shape := ⟨4, ![1, 512, 1, 8]⟩
abbrev S16x512x16x8 : Shape := ⟨4, ![16, 512, 16, 8]⟩
abbrev S16x8 : Shape := ⟨2, ![16, 8]⟩
abbrev S128 : Shape := ⟨1, ![128]⟩
abbrev S1x128 : Shape := ⟨2, ![1, 128]⟩
abbrev S1x512 : Shape := ⟨2, ![1, 512]⟩
abbrev S16x512 : Shape := ⟨2, ![16, 512]⟩
abbrev S8192 : Shape := ⟨1, ![8192]⟩
abbrev S1x8192 : Shape := ⟨2, ![1, 8192]⟩
abbrev S256x128 : Shape := ⟨2, ![256, 128]⟩
abbrev S256x8192 : Shape := ⟨2, ![256, 8192]⟩

abbrev nBuf : Space → Nat
  | .hbm => 126
  | .vmem => 16
  | .smem => 0
  | _ => 0

abbrev bufTy : (tb : Table) → Fin (tcTables nBuf tb) → BufTy
  | .hbm, ⟨0, _⟩ => ⟨S32x4096x8, .f32⟩
  | .hbm, ⟨1, _⟩ => ⟨S8x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S512x8, .f32⟩
  | .hbm, ⟨6, _⟩ => ⟨S512, .f32⟩
  | .hbm, ⟨7, _⟩ => ⟨S8x512, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8192x128, .f32⟩
  | .hbm, ⟨14, _⟩ => ⟨S8x8, .f32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .i1⟩
  | .hbm, ⟨21, _⟩ => ⟨S16x16, .f32⟩
  | .hbm, ⟨22, _⟩ => ⟨S16x1x16x1, .f32⟩
  | .hbm, ⟨23, _⟩ => ⟨S1x8x1x8, .f32⟩
  | .hbm, ⟨24, _⟩ => ⟨S16x8x16x8, .f32⟩
  | .hbm, ⟨25, _⟩ => ⟨S16x8x16x8, .f32⟩
  | .hbm, ⟨26, _⟩ => ⟨S16x8x16x8, .f32⟩
  | .hbm, ⟨27, _⟩ => ⟨S128x128, .f32⟩
  | .hbm, ⟨28, _⟩ => ⟨S128x128, .bf16⟩
  | .hbm, ⟨29, _⟩ => ⟨S8x8, .f32⟩
  | .hbm, ⟨30, _⟩ => ⟨S16x16, .i32⟩
  | .hbm, ⟨31, _⟩ => ⟨S16x16, .i32⟩
  | .hbm, ⟨32, _⟩ => ⟨S_, .i32⟩
  | .hbm, ⟨33, _⟩ => ⟨S16x16, .i32⟩
  | .hbm, ⟨34, _⟩ => ⟨S16x16, .i32⟩
  | .hbm, ⟨35, _⟩ => ⟨S16x16, .i1⟩
  | .hbm, ⟨36, _⟩ => ⟨S16x16, .f32⟩
  | .hbm, ⟨37, _⟩ => ⟨S16x1x16x1, .f32⟩
  | .hbm, ⟨38, _⟩ => ⟨S1x8x1x8, .f32⟩
  | .hbm, ⟨39, _⟩ => ⟨S16x8x16x8, .f32⟩
  | .hbm, ⟨40, _⟩ => ⟨S16x8x16x8, .f32⟩
  | .hbm, ⟨41, _⟩ => ⟨S16x8x16x8, .f32⟩
  | .hbm, ⟨42, _⟩ => ⟨S128x128, .f32⟩
  | .hbm, ⟨43, _⟩ => ⟨S128x128, .bf16⟩
  | .hbm, ⟨44, _⟩ => ⟨S8, .f32⟩
  | .hbm, ⟨45, _⟩ => ⟨S1x8, .f32⟩
  | .hbm, ⟨46, _⟩ => ⟨S512x8, .f32⟩
  | .hbm, ⟨47, _⟩ => ⟨S512x8, .f32⟩
  | .hbm, ⟨48, _⟩ => ⟨S8x512, .f32⟩
  | .hbm, ⟨49, _⟩ => ⟨S16x16, .i32⟩
  | .hbm, ⟨50, _⟩ => ⟨S16x16, .i32⟩
  | .hbm, ⟨51, _⟩ => ⟨S_, .i32⟩
  | .hbm, ⟨52, _⟩ => ⟨S16x16, .i32⟩
  | .hbm, ⟨53, _⟩ => ⟨S16x16, .i32⟩
  | .hbm, ⟨54, _⟩ => ⟨S16x16, .i1⟩
  | .hbm, ⟨55, _⟩ => ⟨S16x16, .f32⟩
  | .hbm, ⟨56, _⟩ => ⟨S16x1x16x1, .f32⟩
  | .hbm, ⟨57, _⟩ => ⟨S1x8x1x512, .f32⟩
  | .hbm, ⟨58, _⟩ => ⟨S16x8x16x512, .f32⟩
  | .hbm, ⟨59, _⟩ => ⟨S16x8x16x512, .f32⟩
  | .hbm, ⟨60, _⟩ => ⟨S16x8x16x512, .f32⟩
  | .hbm, ⟨61, _⟩ => ⟨S128x8192, .f32⟩
  | .hbm, ⟨62, _⟩ => ⟨S128x8192, .bf16⟩
  | .hbm, ⟨63, _⟩ => ⟨S512x8, .f32⟩
  | .hbm, ⟨64, _⟩ => ⟨S16x16, .i32⟩
  | .hbm, ⟨65, _⟩ => ⟨S16x16, .i32⟩
  | .hbm, ⟨66, _⟩ => ⟨S_, .i32⟩
  | .hbm, ⟨67, _⟩ => ⟨S16x16, .i32⟩
  | .hbm, ⟨68, _⟩ => ⟨S16x16, .i32⟩
  | .hbm, ⟨69, _⟩ => ⟨S16x16, .i1⟩
  | .hbm, ⟨70, _⟩ => ⟨S16x16, .f32⟩
  | .hbm, ⟨71, _⟩ => ⟨S16x1x16x1, .f32⟩
  | .hbm, ⟨72, _⟩ => ⟨S1x512x1x8, .f32⟩
  | .hbm, ⟨73, _⟩ => ⟨S16x512x16x8, .f32⟩
  | .hbm, ⟨74, _⟩ => ⟨S16x512x16x8, .f32⟩
  | .hbm, ⟨75, _⟩ => ⟨S16x512x16x8, .f32⟩
  | .hbm, ⟨76, _⟩ => ⟨S8192x128, .f32⟩
  | .hbm, ⟨77, _⟩ => ⟨S8192x128, .bf16⟩
  | .hbm, ⟨78, _⟩ => ⟨S1x8, .f32⟩
  | .hbm, ⟨79, _⟩ => ⟨S16x8, .f32⟩
  | .hbm, ⟨80, _⟩ => ⟨S128, .f32⟩
  | .hbm, ⟨81, _⟩ => ⟨S1x128, .f32⟩
  | .hbm, ⟨82, _⟩ => ⟨S1x512, .f32⟩
  | .hbm, ⟨83, _⟩ => ⟨S16x512, .f32⟩
  | .hbm, ⟨84, _⟩ => ⟨S8192, .f32⟩
  | .hbm, ⟨85, _⟩ => ⟨S1x8192, .f32⟩
  | .hbm, ⟨86, _⟩ => ⟨S1x8, .f32⟩
  | .hbm, ⟨87, _⟩ => ⟨S16x8, .f32⟩
  | .hbm, ⟨88, _⟩ => ⟨S128, .f32⟩
  | .hbm, ⟨89, _⟩ => ⟨S1x128, .f32⟩
  | .hbm, ⟨90, _⟩ => ⟨S1x8, .f32⟩
  | .hbm, ⟨91, _⟩ => ⟨S16x8, .f32⟩
  | .hbm, ⟨92, _⟩ => ⟨S128, .f32⟩
  | .hbm, ⟨93, _⟩ => ⟨S1x128, .f32⟩
  | .hbm, ⟨94, _⟩ => ⟨S1x8, .f32⟩
  | .hbm, ⟨95, _⟩ => ⟨S16x8, .f32⟩
  | .hbm, ⟨96, _⟩ => ⟨S128, .f32⟩
  | .hbm, ⟨97, _⟩ => ⟨S1x128, .f32⟩
  | .hbm, ⟨98, _⟩ => ⟨S1x8, .f32⟩
  | .hbm, ⟨99, _⟩ => ⟨S16x8, .f32⟩
  | .hbm, ⟨100, _⟩ => ⟨S128, .f32⟩
  | .hbm, ⟨101, _⟩ => ⟨S1x128, .f32⟩
  | .hbm, ⟨102, _⟩ => ⟨S1x8, .f32⟩
  | .hbm, ⟨103, _⟩ => ⟨S16x8, .f32⟩
  | .hbm, ⟨104, _⟩ => ⟨S128, .f32⟩
  | .hbm, ⟨105, _⟩ => ⟨S1x128, .f32⟩
  | .hbm, ⟨106, _⟩ => ⟨S16x16, .i32⟩
  | .hbm, ⟨107, _⟩ => ⟨S16x16, .i32⟩
  | .hbm, ⟨108, _⟩ => ⟨S_, .i32⟩
  | .hbm, ⟨109, _⟩ => ⟨S16x16, .i32⟩
  | .hbm, ⟨110, _⟩ => ⟨S16x16, .i32⟩
  | .hbm, ⟨111, _⟩ => ⟨S16x16, .i1⟩
  | .hbm, ⟨112, _⟩ => ⟨S16x16, .f32⟩
  | .hbm, ⟨113, _⟩ => ⟨S_, .f32⟩
  | .hbm, ⟨114, _⟩ => ⟨S8x8, .f32⟩
  | .hbm, ⟨115, _⟩ => ⟨S_, .f32⟩
  | .hbm, ⟨116, _⟩ => ⟨S8x8, .f32⟩
  | .hbm, ⟨117, _⟩ => ⟨S8x8, .f32⟩
  | .hbm, ⟨118, _⟩ => ⟨S16x1x16x1, .f32⟩
  | .hbm, ⟨119, _⟩ => ⟨S1x8x1x8, .f32⟩
  | .hbm, ⟨120, _⟩ => ⟨S16x8x16x8, .f32⟩
  | .hbm, ⟨121, _⟩ => ⟨S16x8x16x8, .f32⟩
  | .hbm, ⟨122, _⟩ => ⟨S16x8x16x8, .f32⟩
  | .hbm, ⟨123, _⟩ => ⟨S128x128, .f32⟩
  | .hbm, ⟨124, _⟩ => ⟨S8192x128, .f32⟩
  | .hbm, ⟨125, _⟩ => ⟨S32x4096x8, .f32⟩
  | .local _ .vmem, ⟨0, _⟩ => ⟨S256x128, .f32⟩
  | .local _ .vmem, ⟨1, _⟩ => ⟨S256x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S128x8192, .bf16⟩
  | .local _ .vmem, ⟨6, _⟩ => ⟨S1x8192, .f32⟩
  | .local _ .vmem, ⟨7, _⟩ => ⟨S8192x128, .bf16⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S256x128, .f32⟩
  | .local _ .vmem, ⟨15, _⟩ => ⟨S256x128, .f32⟩
  | _, _ => ⟨S32x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_1 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_2 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_3 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst : Ref sig .tc := ⟨.hbm, 113, rfl⟩
abbrev main_v75 : Ref sig .tc := ⟨.hbm, 114, rfl⟩
abbrev main_cst_4 : Ref sig .tc := ⟨.hbm, 115, rfl⟩
abbrev main_v76 : Ref sig .tc := ⟨.hbm, 116, rfl⟩
abbrev main_v77 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S32x4096x8_S8192x128 : S32x4096x8.ShapeCasts S8192x128
  transposes_S8x8_S8x8_1_0 : S8x8.Transposes [1, 0] S8x8
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S8x8_S1x8x1x8_1_3 : S8x8.BroadcastsInDim S1x8x1x8 (![1, 3] : Fin 2 → Fin S1x8x1x8.rank)
  bcast_S16x1x16x1_S16x8x16x8_0_1_2_3 : S16x1x16x1.BroadcastsInDim S16x8x16x8 (![0, 1, 2, 3] : Fin 4 → Fin S16x8x16x8.rank)
  bcast_S1x8x1x8_S16x8x16x8_0_1_2_3 : S1x8x1x8.BroadcastsInDim S16x8x16x8 (![0, 1, 2, 3] : Fin 4 → Fin S16x8x16x8.rank)
  shapeCasts_S16x8x16x8_S128x128 : S16x8x16x8.ShapeCasts S128x128
  bitsLt_bf16_f32 : FTy.bits .bf16 < FTy.bits .f32
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  transposes_S512x8_S8x512_1_0 : S512x8.Transposes [1, 0] S8x512
  bcast_S8x512_S1x8x1x512_1_3 : S8x512.BroadcastsInDim S1x8x1x512 (![1, 3] : Fin 2 → Fin S1x8x1x512.rank)
  bcast_S16x1x16x1_S16x8x16x512_0_1_2_3 : S16x1x16x1.BroadcastsInDim S16x8x16x512 (![0, 1, 2, 3] : Fin 4 → Fin S16x8x16x512.rank)
  bcast_S1x8x1x512_S16x8x16x512_0_1_2_3 : S1x8x1x512.BroadcastsInDim S16x8x16x512 (![0, 1, 2, 3] : Fin 4 → Fin S16x8x16x512.rank)
  shapeCasts_S16x8x16x512_S128x8192 : S16x8x16x512.ShapeCasts S128x8192
  transposes_S8x512_S512x8_1_0 : S8x512.Transposes [1, 0] S512x8
  bcast_S512x8_S1x512x1x8_1_3 : S512x8.BroadcastsInDim S1x512x1x8 (![1, 3] : Fin 2 → Fin S1x512x1x8.rank)
  bcast_S16x1x16x1_S16x512x16x8_0_1_2_3 : S16x1x16x1.BroadcastsInDim S16x512x16x8 (![0, 1, 2, 3] : Fin 4 → Fin S16x512x16x8.rank)
  bcast_S1x512x1x8_S16x512x16x8_0_1_2_3 : S1x512x1x8.BroadcastsInDim S16x512x16x8 (![0, 1, 2, 3] : Fin 4 → Fin S16x512x16x8.rank)
  shapeCasts_S16x512x16x8_S8192x128 : S16x512x16x8.ShapeCasts S8192x128
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  shapeCasts_S128_S1x128 : S128.ShapeCasts S1x128
  shapeCasts_S512_S1x512 : S512.ShapeCasts S1x512
  bcast_S1x512_S16x512_0_1 : S1x512.BroadcastsInDim S16x512 (![0, 1] : Fin 2 → Fin S16x512.rank)
  shapeCasts_S16x512_S8192 : S16x512.ShapeCasts S8192
  shapeCasts_S8192_S1x8192 : S8192.ShapeCasts S1x8192
  bcast_S_S8x8 : S_.BroadcastsInDim S8x8 (![] : Fin 0 → Fin S8x8.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S32x4096x8 : S8192x128.ShapeCasts S32x4096x8
  dot_S256x128_S128x128_S256x128_1_0_0_1_n_n_wf : DotDims.WF S256x128 S128x128 S256x128 [1] [0] [0] [1] [] []
  dot_S256x128_S128x8192_S256x8192_1_0_0_1_n_n_wf : DotDims.WF S256x128 S128x8192 S256x8192 [1] [0] [0] [1] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S128x8192.size a
  hwx0_4 : ∀ i : grid0.Coords, EltTy.bits .bf16 = 32 ∨ (Rect.block (s := S128x8192) S128x8192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S8192x128.size a
  hwx0_6 : ∀ i : grid0.Coords, EltTy.bits .bf16 = 32 ∨ (Rect.block (s := S8192x128) S8192x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S8192x128.size a
  hwx0_13 : ∀ i : grid0.Coords, EltTy.bits .f32 = 32 ∨ (Rect.block (s := S8192x128) S256x128.size (cc0_transform_13 i) (hinb0_13 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S8192x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v78) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v56) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v60) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v64) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v68) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v79) S256x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32x4096x8 : Shape := ⟨3, ![32, 4096, 8]⟩
abbrev S8x8 : Shape := ⟨2, ![8, 8]⟩
abbrev S8 : Shape := ⟨1, ![8]⟩
abbrev S512x8 : Shape := ⟨2, ![512, 8]⟩
abbrev S512 : Shape := ⟨1, ![512]⟩
abbrev S8x512 : Shape := ⟨2, ![8, 512]⟩
abbrev S1x1x8 : Shape := ⟨3, ![1, 1, 8]⟩
abbrev S_ : Shape := ⟨0, ![]⟩
abbrev S32x4096 : Shape := ⟨2, ![32, 4096]⟩
abbrev S32x4096x1 : Shape := ⟨3, ![32, 4096, 1]⟩
abbrev S32x4096x512 : Shape := ⟨3, ![32, 4096, 512]⟩
abbrev S1x1x512 : Shape := ⟨3, ![1, 1, 512]⟩

abbrev nBuf : Space → Nat
  | .hbm => 95
  | .vmem => 0
  | .smem => 0
  | _ => 0

abbrev bufTy : (tb : Table) → Fin (tcTables nBuf tb) → BufTy
  | .hbm, ⟨0, _⟩ => ⟨S32x4096x8, .f32⟩
  | .hbm, ⟨1, _⟩ => ⟨S8x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S512x8, .f32⟩
  | .hbm, ⟨6, _⟩ => ⟨S512, .f32⟩
  | .hbm, ⟨7, _⟩ => ⟨S8x512, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S32x4096x8, .f32⟩
  | .hbm, ⟨14, _⟩ => ⟨S1x1x8, .f32⟩
  | .hbm, ⟨15, _⟩ => ⟨S32x4096x8, .f32⟩
  | .hbm, ⟨16, _⟩ => ⟨S32x4096x8, .f32⟩
  | .hbm, ⟨17, _⟩ => ⟨S32x4096x8, .f32⟩
  | .hbm, ⟨18, _⟩ => ⟨S32x4096x8, .f32⟩
  | .hbm, ⟨19, _⟩ => ⟨S32x4096x8, .f32⟩
  | .hbm, ⟨20, _⟩ => ⟨S_, .f32⟩
  | .hbm, ⟨21, _⟩ => ⟨S32x4096, .f32⟩
  | .hbm, ⟨22, _⟩ => ⟨S32x4096x1, .f32⟩
  | .hbm, ⟨23, _⟩ => ⟨S_, .f32⟩
  | .hbm, ⟨24, _⟩ => ⟨S32x4096x1, .f32⟩
  | .hbm, ⟨25, _⟩ => ⟨S32x4096x1, .f32⟩
  | .hbm, ⟨26, _⟩ => ⟨S32x4096x8, .f32⟩
  | .hbm, ⟨27, _⟩ => ⟨S32x4096x8, .f32⟩
  | .hbm, ⟨28, _⟩ => ⟨S32x4096x8, .f32⟩
  | .hbm, ⟨29, _⟩ => ⟨S_, .f32⟩
  | .hbm, ⟨30, _⟩ => ⟨S32x4096, .f32⟩
  | .hbm, ⟨31, _⟩ => ⟨S32x4096x1, .f32⟩
  | .hbm, ⟨32, _⟩ => ⟨S_, .f32⟩
  | .hbm, ⟨33, _⟩ => ⟨S32x4096x1, .f32⟩
  | .hbm, ⟨34, _⟩ => ⟨S32x4096x1, .f32⟩
  | .hbm, ⟨35, _⟩ => ⟨S32x4096x8, .f32⟩
  | .hbm, ⟨36, _⟩ => ⟨S32x4096x8, .f32⟩
  | .hbm, ⟨37, _⟩ => ⟨S_, .f32⟩
  | .hbm, ⟨38, _⟩ => ⟨S32x4096x1, .f32⟩
  | .hbm, ⟨39, _⟩ => ⟨S32x4096x1, .f32⟩
  | .hbm, ⟨40, _⟩ => ⟨S32x4096x1, .f32⟩
  | .hbm, ⟨41, _⟩ => ⟨S32x4096x8, .f32⟩
  | .hbm, ⟨42, _⟩ => ⟨S32x4096x8, .f32⟩
  | .hbm, ⟨43, _⟩ => ⟨S1x1x8, .f32⟩
  | .hbm, ⟨44, _⟩ => ⟨S32x4096x8, .f32⟩
  | .hbm, ⟨45, _⟩ => ⟨S32x4096x8, .f32⟩
  | .hbm, ⟨46, _⟩ => ⟨S1x1x8, .f32⟩
  | .hbm, ⟨47, _⟩ => ⟨S32x4096x8, .f32⟩
  | .hbm, ⟨48, _⟩ => ⟨S32x4096x8, .f32⟩
  | .hbm, ⟨49, _⟩ => ⟨S32x4096x8, .f32⟩
  | .hbm, ⟨50, _⟩ => ⟨S8, .f32⟩
  | .hbm, ⟨51, _⟩ => ⟨S1x1x8, .f32⟩
  | .hbm, ⟨52, _⟩ => ⟨S32x4096x8, .f32⟩
  | .hbm, ⟨53, _⟩ => ⟨S32x4096x8, .f32⟩
  | .hbm, ⟨54, _⟩ => ⟨S32x4096x512, .f32⟩
  | .hbm, ⟨55, _⟩ => ⟨S1x1x512, .f32⟩
  | .hbm, ⟨56, _⟩ => ⟨S32x4096x512, .f32⟩
  | .hbm, ⟨57, _⟩ => ⟨S32x4096x512, .f32⟩
  | .hbm, ⟨58, _⟩ => ⟨S_, .f32⟩
  | .hbm, ⟨59, _⟩ => ⟨S32x4096x512, .f32⟩
  | .hbm, ⟨60, _⟩ => ⟨S32x4096x512, .f32⟩
  | .hbm, ⟨61, _⟩ => ⟨S32x4096x8, .f32⟩
  | .hbm, ⟨62, _⟩ => ⟨S1x1x8, .f32⟩
  | .hbm, ⟨63, _⟩ => ⟨S32x4096x8, .f32⟩
  | .hbm, ⟨64, _⟩ => ⟨S32x4096x8, .f32⟩
  | .hbm, ⟨65, _⟩ => ⟨S32x4096x8, .f32⟩
  | .hbm, ⟨66, _⟩ => ⟨S_, .f32⟩
  | .hbm, ⟨67, _⟩ => ⟨S32x4096, .f32⟩
  | .hbm, ⟨68, _⟩ => ⟨S32x4096x1, .f32⟩
  | .hbm, ⟨69, _⟩ => ⟨S_, .f32⟩
  | .hbm, ⟨70, _⟩ => ⟨S32x4096x1, .f32⟩
  | .hbm, ⟨71, _⟩ => ⟨S32x4096x1, .f32⟩
  | .hbm, ⟨72, _⟩ => ⟨S32x4096x8, .f32⟩
  | .hbm, ⟨73, _⟩ => ⟨S32x4096x8, .f32⟩
  | .hbm, ⟨74, _⟩ => ⟨S32x4096x8, .f32⟩
  | .hbm, ⟨75, _⟩ => ⟨S_, .f32⟩
  | .hbm, ⟨76, _⟩ => ⟨S32x4096, .f32⟩
  | .hbm, ⟨77, _⟩ => ⟨S32x4096x1, .f32⟩
  | .hbm, ⟨78, _⟩ => ⟨S_, .f32⟩
  | .hbm, ⟨79, _⟩ => ⟨S32x4096x1, .f32⟩
  | .hbm, ⟨80, _⟩ => ⟨S32x4096x1, .f32⟩
  | .hbm, ⟨81, _⟩ => ⟨S32x4096x8, .f32⟩
  | .hbm, ⟨82, _⟩ => ⟨S32x4096x8, .f32⟩
  | .hbm, ⟨83, _⟩ => ⟨S_, .f32⟩
  | .hbm, ⟨84, _⟩ => ⟨S32x4096x1, .f32⟩
  | .hbm, ⟨85, _⟩ => ⟨S32x4096x1, .f32⟩
  | .hbm, ⟨86, _⟩ => ⟨S32x4096x1, .f32⟩
  | .hbm, ⟨87, _⟩ => ⟨S32x4096x8, .f32⟩
  | .hbm, ⟨88, _⟩ => ⟨S32x4096x8, .f32⟩
  | .hbm, ⟨89, _⟩ => ⟨S1x1x8, .f32⟩
  | .hbm, ⟨90, _⟩ => ⟨S32x4096x8, .f32⟩
  | .hbm, ⟨91, _⟩ => ⟨S32x4096x8, .f32⟩
  | .hbm, ⟨92, _⟩ => ⟨S1x1x8, .f32⟩
  | .hbm, ⟨93, _⟩ => ⟨S32x4096x8, .f32⟩
  | .hbm, ⟨94, _⟩ => ⟨S32x4096x8, .f32⟩
  | _, _ => ⟨S32x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S32x4096x8_0_1_2 : S1x1x8.BroadcastsInDim S32x4096x8 (![0, 1, 2] : Fin 3 → Fin S32x4096x8.rank)
  reducesTo_S32x4096x8_S32x4096_d2 : S32x4096x8.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x8_0_1_2 : S32x4096x1.BroadcastsInDim S32x4096x8 (![0, 1, 2] : Fin 3 → Fin S32x4096x8.rank)
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  bcast_S_S32x4096x512 : S_.BroadcastsInDim S32x4096x512 (![] : Fin 0 → Fin S32x4096x512.rank)
  dot_S32x4096x8_S8x8_S32x4096x8_2_1_01_0_n_n_wf : DotDims.WF S32x4096x8 S8x8 S32x4096x8 [2] [1] [0, 1] [0] [] []
  dot_S32x4096x8_S512x8_S32x4096x512_2_1_01_0_n_n_wf : DotDims.WF S32x4096x8 S512x8 S32x4096x512 [2] [1] [0, 1] [0] [] []
  dot_S32x4096x512_S8x512_S32x4096x8_2_1_01_0_n_n_wf : DotDims.WF S32x4096x512 S8x512 S32x4096x8 [2] [1] [0, 1] [0] [] []

variable [Facts₀]

def dot_S32x4096x8_S8x8_S32x4096x8_2_1_01_0_n_n : DotDims S32x4096x8 S8x8 S32x4096x8 where
  lhsContracting := [2]
  rhsContracting := [1]
  lhsNonContracting := [0, 1]
  rhsNonContracting := [0]
  lhsBatch := []
  rhsBatch := []
  wf := dot_S32x4096x8_S8x8_S32x4096x8_2_1_01_0_n_n_wf
def dot_S32x4096x8_S512x8_S32x4096x512_2_1_01_0_n_n : DotDims S32x4096x8 S512x8 S32x4096x512 where
  lhsContracting := [2]
  rhsContracting := [1]
  lhsNonContracting := [0, 1]
  rhsNonContracting := [0]
  lhsBatch := []
  rhsBatch := []
  wf := dot_S32x4096x8_S512x8_S32x4096x512_2_1_01_0_n_n_wf
def dot_S32x4096x512_S8x512_S32x4096x8_2_1_01_0_n_n : DotDims S32x4096x512 S8x512 S32x4096x8 where
  lhsContracting := [2]
  rhsContracting := [1]
  lhsNonContracting := [0, 1]
  rhsNonContracting := [0]
  lhsBatch := []
  rhsBatch := []
  wf := dot_S32x4096x512_S8x512_S32x4096x8_2_1_01_0_n_n_wf

class Facts : Prop extends Facts₀ where

variable [Facts]
-- ==== Proof.TokenMath.lean ====
/-
  The mathematics both programs compute, written once for ONE token: a row of eight features passes through a
  cosine "attention" (a linear map, a phase, a cosine, a second linear map, added back to the row), a layer
  normalisation over its eight features, a cosine feed-forward block (a cosine, a scale, a linear map to 512 features,
  a bias, a clamp below at zero, a linear map back to eight, a bias, added back) and a second layer normalisation.
  Everything is over the extended reals with their own sum and product; the mean of eight numbers is their sum times
  the real number one eighth. The array-level function `G` applies the token map to every row of a
  32 × 4096 × 8 array. Also here: the three float patterns the programs spell whose values matter
  (1, 8 and the quotient 1 / 8), and the lanes of a packed row: sixteen tokens of eight features side by side in
  128 lanes, and sixteen tokens of 512 hidden features side by side in 8192 lanes.
-/
import Idealize.ShloMosaic.PureOps.Ideal
import Idealize.ShloMosaic.PureOps.Ideal.Laws
import Idealize.ShloMosaic.Lib.ValueIdx

noncomputable section

namespace Cert.TokenMath

open Idealize.ShloMosaic Idealize.ShloMosaic.ValueIdx
open scoped BigOperators

/-! ## Constants -/

/-- The offset added to a variance before the reciprocal square root: the pattern both programs spell. -/
def eps : EReal := Ideal.ofBits .f32 0x3727C5AC#32

/-- One eighth, as an extended real. -/
def eighth : EReal := ((1 / 8 : ℝ) : EReal)

/-- The pattern of `1.0` denotes one. -/
theorem ofBits_one : Ideal.ofBits .f32 0x3F800000#32 = 1 := by
  simp [Ideal.ofBits, Ideal.ieee, -EReal.coe_mul]; norm_num

/-- The pattern of `8.0` denotes the real number eight. -/
theorem ofBits_eight : Ideal.ofBits .f32 0x41000000#32 = ((8 : ℝ) : EReal) := by
  simp [Ideal.ofBits, Ideal.ieee, -EReal.coe_mul]; norm_num

/-- A quotient by the pattern of `8.0` is the product with one eighth, for every extended real. -/
theorem div_eight (x : EReal) : Ideal.div x (Ideal.ofBits .f32 0x41000000#32) = x * eighth := by
  rw [ofBits_eight]; exact Ideal.div_coe (by norm_num) x

/-- The quotient of the patterns of `1.0` and `8.0` is one eighth. -/
theorem one_div_eight : Ideal.div (Ideal.ofBits .f32 0x3F800000#32) (Ideal.ofBits .f32 0x41000000#32) = eighth := by
  rw [div_eight, ofBits_one, one_mul]

/-! ## One token -/

/-- The weights of the block, as functions of coordinates. -/
structure Params where
  /-- input projection of the attention, `win f e` -/
  win : Fin 8 → Fin 8 → EReal
  /-- phase of the attention -/
  tha : Fin 8 → EReal
  /-- output projection of the attention, `wout e f` -/
  wout : Fin 8 → Fin 8 → EReal
  /-- phase of the feed-forward block -/
  thf : Fin 8 → EReal
  /-- first linear map of the feed-forward block, `w1 f e` -/
  w1 : Fin 512 → Fin 8 → EReal
  /-- its bias -/
  b1 : Fin 512 → EReal
  /-- second linear map of the feed-forward block, `w2 e f` -/
  w2 : Fin 8 → Fin 512 → EReal
  /-- its bias -/
  b2 : Fin 8 → EReal
  /-- scale of the first normalisation -/
  g1 : Fin 8 → EReal
  /-- shift of the first normalisation -/
  c1 : Fin 8 → EReal
  /-- scale of the second normalisation -/
  g2 : Fin 8 → EReal
  /-- shift of the second normalisation -/
  c2 : Fin 8 → EReal

/-- The mean of eight extended reals: their sum times one eighth. -/
def mean8 (y : Fin 8 → EReal) : EReal := (∑ k, y k) * eighth

/-- Layer normalisation of a row of eight: centre, scale by the reciprocal root of the variance plus the offset,
    then the affine map. -/
def layerNorm (y g c : Fin 8 → EReal) (e : Fin 8) : EReal :=
  (y e - mean8 y) * Ideal.rsqrt (mean8 (fun k => (y k - mean8 y) * (y k - mean8 y)) + eps) * g e + c e

variable (P : Params) (x : Fin 8 → EReal)

/-- Input projection of the attention. -/
def attnIn (f : Fin 8) : EReal := ∑ e, x e * P.win f e
/-- Cosine of the projected row plus the phase. -/
def attnQ (f : Fin 8) : EReal := Ideal.cos (attnIn P x f + P.tha f)
/-- Output projection of the attention. -/
def attnOut (e : Fin 8) : EReal := ∑ f, attnQ P x f * P.wout e f
/-- The row plus its attention. -/
def resid1 (e : Fin 8) : EReal := x e + attnOut P x e
/-- The first normalisation. -/
def hidden : Fin 8 → EReal := layerNorm (resid1 P x) P.g1 P.c1
/-- Cosine of the normalised row, scaled by the cosine of the phase. -/
def ffnQ (e : Fin 8) : EReal := Ideal.cos (hidden P x e) * Ideal.cos (P.thf e)
/-- First linear map of the feed-forward block, with its bias. -/
def ffnMid (f : Fin 512) : EReal := (∑ e, ffnQ P x e * P.w1 f e) + P.b1 f
/-- The clamp at zero, the second linear map and its bias. -/
def ffnOut (e : Fin 8) : EReal := (∑ f, max (ffnMid P x f) 0 * P.w2 e f) + P.b2 e
/-- The normalised row plus its feed-forward block. -/
def resid2 (e : Fin 8) : EReal := hidden P x e + ffnOut P x e
/-- The second normalisation: the token's result. -/
def tokenOut : Fin 8 → EReal := layerNorm (resid2 P x) P.g2 P.c2

/-! ## Whole arrays -/

/-- The weights read off the twelve weight arrays. -/
def params (a1 : FVec Ideal ⟨2, ![8, 8]⟩ .f32) (a2 : FVec Ideal ⟨1, ![8]⟩ .f32) (a3 : FVec Ideal ⟨2, ![8, 8]⟩ .f32)
    (a4 : FVec Ideal ⟨1, ![8]⟩ .f32) (a5 : FVec Ideal ⟨2, ![512, 8]⟩ .f32) (a6 : FVec Ideal ⟨1, ![512]⟩ .f32)
    (a7 : FVec Ideal ⟨2, ![8, 512]⟩ .f32) (a8 a9 a10 a11 a12 : FVec Ideal ⟨1, ![8]⟩ .f32) : Params where
  win f e := a1 (ix2 f e)
  tha e := a2 (ix1 e)
  wout e f := a3 (ix2 e f)
  thf e := a4 (ix1 e)
  w1 f e := a5 (ix2 f e)
  b1 f := a6 (ix1 f)
  w2 e f := a7 (ix2 e f)
  b2 e := a8 (ix1 e)
  g1 e := a9 (ix1 e)
  c1 e := a10 (ix1 e)
  g2 e := a11 (ix1 e)
  c2 e := a12 (ix1 e)

/-- Row `(b, s)` of a 32 × 4096 × 8 array. -/
def row (a0 : FVec Ideal ⟨3, ![32, 4096, 8]⟩ .f32) (b : Fin 32) (s : Fin 4096) : Fin 8 → EReal :=
  fun e => a0 (ix3 b s e)

/-- The block applied to every row: the result array as a function of the thirteen argument arrays. -/
def G (a0 : FVec Ideal ⟨3, ![32, 4096, 8]⟩ .f32) (a1 : FVec Ideal ⟨2, ![8, 8]⟩ .f32) (a2 : FVec Ideal ⟨1, ![8]⟩ .f32)
    (a3 : FVec Ideal ⟨2, ![8, 8]⟩ .f32) (a4 : FVec Ideal ⟨1, ![8]⟩ .f32) (a5 : FVec Ideal ⟨2, ![512, 8]⟩ .f32)
    (a6 : FVec Ideal ⟨1, ![512]⟩ .f32) (a7 : FVec Ideal ⟨2, ![8, 512]⟩ .f32)
    (a8 a9 a10 a11 a12 : FVec Ideal ⟨1, ![8]⟩ .f32) : FVec Ideal ⟨3, ![32, 4096, 8]⟩ .f32 :=
  fun i => tokenOut (params a1 a2 a3 a4 a5 a6 a7 a8 a9 a10 a11 a12) (row a0 (i 0) (i 1)) (i 2)

/-! ## Lanes of a packed row -/

/-- Lane of feature `e` of the `g`-th token of a packed row of 128 lanes. -/
def lane (g : Fin 16) (e : Fin 8) : Fin 128 := ⟨8 * g.val + e.val, by omega⟩
/-- Lane of hidden feature `f` of the `g`-th token of a packed row of 8192 lanes. -/
def wide (g : Fin 16) (f : Fin 512) : Fin 8192 := ⟨512 * g.val + f.val, by omega⟩

@[simp] theorem lane_val (g : Fin 16) (e : Fin 8) : (lane g e).val = 8 * g.val + e.val := rfl
@[simp] theorem wide_val (g : Fin 16) (f : Fin 512) : (wide g f).val = 512 * g.val + f.val := rfl

/-- The 128 lanes are the pairs (token, feature). -/
def laneEquiv : Fin 16 × Fin 8 ≃ Fin 128 where
  toFun q := lane q.1 q.2
  invFun l := (⟨l.val / 8, by omega⟩, ⟨l.val % 8, by omega⟩)
  left_inv q := by
    obtain ⟨g, e⟩ := q
    refine Prod.ext (Fin.ext ?_) (Fin.ext ?_) <;> simp only [lane_val] <;> omega
  right_inv l := Fin.ext (by simp only [lane_val]; omega)

/-- The 8192 lanes are the pairs (token, hidden feature). -/
def wideEquiv : Fin 16 × Fin 512 ≃ Fin 8192 where
  toFun q := wide q.1 q.2
  invFun l := (⟨l.val / 512, by omega⟩, ⟨l.val % 512, by omega⟩)
  left_inv q := by
    obtain ⟨g, f⟩ := q
    refine Prod.ext (Fin.ext ?_) (Fin.ext ?_) <;> simp only [wide_val] <;> omega
  right_inv l := Fin.ext (by simp only [wide_val]; omega)

@[simp] theorem laneEquiv_apply (g : Fin 16) (e : Fin 8) : laneEquiv (g, e) = lane g e := rfl
@[simp] theorem wideEquiv_apply (g : Fin 16) (f : Fin 512) : wideEquiv (g, f) = wide g f := rfl

/-- The indicator of "same token": what the identity matrix of the packing holds. -/
def same (g g' : Fin 16) : EReal := if g = g' then 1 else 0

/-- Row of the 32 × 4096 × 8 array that the `g`-th token of packed row `r` is: its batch … -/
def tokB (r : Fin 8192) (g : Fin 16) : Fin 32 := ⟨(16 * r.val + g.val) / 4096, by omega⟩
/-- … and its position. -/
def tokS (r : Fin 8192) (g : Fin 16) : Fin 4096 := ⟨(16 * r.val + g.val) % 4096, by omega⟩

@[simp] theorem tokB_val (r : Fin 8192) (g : Fin 16) : (tokB r g).val = (16 * r.val + g.val) / 4096 := rfl
@[simp] theorem tokS_val (r : Fin 8192) (g : Fin 16) : (tokS r g).val = (16 * r.val + g.val) % 4096 := rfl

end Cert.TokenMath

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.BlockSums.lean ====
/-
  Sums over the lanes of a packed row, over the extended reals.

  * A sum over lanes against a column of a BLOCK-DIAGONAL matrix — the entry at (token g₁, feature k) being the
    indicator of g₁ = g times a weight of k — collapses to the sum over the features of token g alone: every other
    term is a product with zero, and zero times any extended real is zero.
  * One eighth is a nonnegative real, so multiplication by it distributes over any finite sum of extended reals
    (infinite terms included): the sum of the eighths is one eighth of the sum.
  * A plain rows-by-columns product into the zero accumulator, for any precision attribute, read at coordinates; and
    the same product when the right operand is block-diagonal over sixteen tokens: at (row p, token g', feature k')
    it is the sum over the features k of token g' alone.
-/
import proofs.«171985_j65481071400382_2_alg».proof.Proof.TokenMath
import proofs.«171985_j65481071400382_2_alg».proof.Proof.LibPlainMatmul

noncomputable section

namespace Cert.BlockSums

open Idealize.ShloMosaic Idealize.ShloMosaic.ValueIdx Cert.TokenMath Cert.LibPlainMatmul
open scoped BigOperators

/-- A sum against a block-diagonal column keeps the terms of the column's own block only. -/
theorem sum_blockdiag {ι κ μ : Type} [Fintype ι] [Fintype κ] [Fintype μ] [DecidableEq ι]
    (eqv : ι × κ ≃ μ) (a w : μ → EReal) (W : κ → EReal) (g : ι)
    (hw : ∀ g₁ k, w (eqv (g₁, k)) = (if g₁ = g then 1 else 0) * W k) :
    ∑ l, a l * w l = ∑ k, a (eqv (g, k)) * W k := by
  rw [← Equiv.sum_comp eqv, Fintype.sum_prod_type, Finset.sum_eq_single g]
  · refine Finset.sum_congr rfl fun k _ => ?_
    rw [hw, if_pos rfl, one_mul]
  · intro g₁ _ hne
    refine Finset.sum_eq_zero fun k _ => ?_
    rw [hw, if_neg hne, zero_mul, mul_zero]
  · intro h
    exact absurd (Finset.mem_univ g) h

theorem eighth_nonneg : 0 ≤ eighth := by
  unfold eighth
  exact_mod_cast (by norm_num : (0 : ℝ) ≤ 1 / 8)

theorem eighth_ne_top : eighth ≠ ⊤ := EReal.coe_ne_top _

/-- Multiplication by one eighth distributes over a finite sum of extended reals. -/
theorem sum_mul_eighth {ι : Type} (s : Finset ι) (y : ι → EReal) :
    ∑ k ∈ s, y k * eighth = (∑ k ∈ s, y k) * eighth := by
  classical
  induction s using Finset.induction_on with
  | empty => simp
  | insert a s ha ih =>
    rw [Finset.sum_insert ha, Finset.sum_insert ha, ih,
      EReal.right_distrib_of_nonneg_of_ne_top eighth_nonneg eighth_ne_top]

/-- The mean of a token's eight features, as the sum of their eighths. -/
theorem sum_eighths (y : Fin 8 → EReal) : ∑ k, y k * eighth = mean8 y := sum_mul_eighth _ _

section Product
variable {m k n : Nat} (wf : DotDims.WF (⟨2, ![m, k]⟩ : Shape) ⟨2, ![k, n]⟩ ⟨2, ![m, n]⟩ [1] [0] [0] [1] [] [])

/-- A plain rows-by-columns product into the zero accumulator, whatever its precision attribute: at (p, q) the sum
    over the shared axis of row p of the left operand against column q of the right. -/
theorem matmul_plain_any (prec : Option ContractPrecision) {φ₁ φ₂ : FTy} (l : FVec Ideal ⟨2, ![m, k]⟩ φ₁)
    (r : FVec Ideal ⟨2, ![k, n]⟩ φ₂) (p : Fin m) (q : Fin n) :
    FloatOps.matmul (plainDims wf) prec l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

/-- The product with a right operand that is block-diagonal over sixteen tokens — its entry at
    ((g, a), (g', b)) the indicator of g = g' times `W a b` — reads, at row p and lane (g', b), the sum over the
    features a of token g' alone. -/
theorem matmul_blockdiag {κa κb : Type} [Fintype κa] [Fintype κb] (prec : Option ContractPrecision) {φ₁ φ₂ : FTy}
    (ea : Fin 16 × κa ≃ Fin k) (la : Fin 16 → κa → Fin k) (hla : ∀ g a, ea (g, a) = la g a)
    (lb : Fin 16 → κb → Fin n)
    (l : FVec Ideal ⟨2, ![m, k]⟩ φ₁) (r : FVec Ideal ⟨2, ![k, n]⟩ φ₂) (W : κa → κb → EReal)
    (hr : ∀ g a g' b, r (ix2 (la g a) (lb g' b)) = same g g' * W a b) (p : Fin m) (g' : Fin 16) (b : κb) :
    FloatOps.matmul (plainDims wf) prec l r (constant (F := Ideal) ⟨2, ![m, n]⟩ .f32 0x00000000#32) (ix2 p (lb g' b))
      = ∑ a, l (ix2 p (la g' a)) * W a b := by
  rw [matmul_plain_any wf prec l r p (lb g' b)]
  rw [sum_blockdiag ea (fun c => l (ix2 p c)) (fun c => r (ix2 c (lb g' b))) (fun a => W a b) g'
    (fun g₁ a => by rw [hla, hr]; rfl)]
  refine Finset.sum_congr rfl fun a _ => ?_
  rw [hla]

end Product

end Cert.BlockSums

end
-- ==== Proof.BlockBody.lean ====
/-
  What the kernel's body computes on one block of 256 packed rows, lane by lane.

  A packed row holds sixteen tokens of eight features side by side; every weight matrix the body multiplies by is
  block-diagonal over the sixteen tokens, and every vector it adds or scales by repeats its eight (or 512) entries
  once per token. Under exactly those hypotheses on the operands, the value the body stores at row p, token g,
  feature e is the token map of `TokenMath` applied to the eight lanes of token g in row p:
  * a product with a block-diagonal matrix is, lane by lane, the small product inside one token;
  * the product with the block-averaging matrix (one eighth inside a token's 8 × 8 block) is the token's mean;
  * the first linear map of the feed-forward block arrives with the cosine of the phase already multiplied into
    the weight: (cos h · cos θ) · w = cos h · (w · cos θ) by associativity and commutativity of the product.
  The body's two halves share the normalisation, which is stated once (`lnVec`).
-/
import proofs.«171985_j65481071400382_2_alg».proof.Proof.Gen.KernelIdeal.Skeleton
import proofs.«171985_j65481071400382_2_alg».proof.Proof.TokenMath
import proofs.«171985_j65481071400382_2_alg».proof.Proof.BlockSums
import Idealize.ShloMosaic.Lib.ValueIdx
import Idealize.ShloMosaic.Lib.Pipeline.Value
import Idealize.ShloMosaic.Lib.ValueLayout

noncomputable section

namespace Cert.BlockBody

open Idealize.ShloMosaic Idealize.ShloMosaic.ValueIdx Cert.KernelIdeal Cert.KernelIdeal.Gen Cert.TokenMath Cert.BlockSums
open scoped BigOperators

/-! ## Small readings -/

/-- The zero accumulator of a product into 256 × 128. -/
abbrev zero128 : FVec Ideal S256x128 .f32 := constant S256x128 .f32 0x00000000#32
/-- The zero accumulator of a product into 256 × 8192. -/
abbrev zero8192 : FVec Ideal S256x8192 .f32 := constant S256x8192 .f32 0x00000000#32

/-- A 1 × 128 vector repeated down the 256 rows. -/
def rows128 (v : FVec Ideal S1x128 .f32) : FVec Ideal S256x128 .f32 :=
  broadcastTo S256x128 (shapeCast S1x128 v shapeCasts_S1x128_S1x128) broadcasts_S1x128_S256x128
/-- A 1 × 8192 vector repeated down the 256 rows. -/
def rows8192 (v : FVec Ideal S1x8192 .f32) : FVec Ideal S256x8192 .f32 :=
  broadcastTo S256x8192 (shapeCast S1x8192 v shapeCasts_S1x8192_S1x8192) broadcasts_S1x8192_S256x8192

theorem rows128_at (v : FVec Ideal S1x128 .f32) (p : Fin 256) (l : Fin 128) :
    rows128 v (ix2 p l) = v (ix2 (0 : Fin 1) l) := by
  unfold rows128
  rw [shapeCast_self]
  exact broadcastTo_1b_ab_apply v _ p l

theorem rows8192_at (v : FVec Ideal S1x8192 .f32) (p : Fin 256) (l : Fin 8192) :
    rows8192 v (ix2 p l) = v (ix2 (0 : Fin 1) l) := by
  unfold rows8192
  rw [shapeCast_self]
  exact broadcastTo_1b_ab_apply v _ p l

/-! ## The three block-diagonal products -/

/-- A product with a 128 × 128 matrix that is block-diagonal over the sixteen tokens. -/
theorem proj_at (prec : Option ContractPrecision) {φ₁ φ₂ : FTy} (a : FVec Ideal S256x128 φ₁) (w : FVec Ideal S128x128 φ₂)
    (W : Fin 8 → Fin 8 → EReal) (hw : ∀ g e g' f, w (ix2 (lane g e) (lane g' f)) = same g g' * W e f)
    (p : Fin 256) (g : Fin 16) (f : Fin 8) :
    matmul dot_S256x128_S128x128_S256x128_1_0_0_1_n_n prec a w zero128 (ix2 p (lane g f))
      = ∑ e, a (ix2 p (lane g e)) * W e f :=
  matmul_blockdiag _ prec laneEquiv lane (fun _ _ => rfl) lane a w W hw p g f

/-- A product with a 128 × 8192 matrix that is block-diagonal over the sixteen tokens. -/
theorem up_at {φ₁ φ₂ : FTy} (a : FVec Ideal S256x128 φ₁) (w : FVec Ideal S128x8192 φ₂)
    (W : Fin 8 → Fin 512 → EReal) (hw : ∀ g e g' f, w (ix2 (lane g e) (wide g' f)) = same g g' * W e f)
    (p : Fin 256) (g : Fin 16) (f : Fin 512) :
    matmul dot_S256x128_S128x8192_S256x8192_1_0_0_1_n_n none a w zero8192 (ix2 p (wide g f))
      = ∑ e, a (ix2 p (lane g e)) * W e f :=
  matmul_blockdiag _ none laneEquiv lane (fun _ _ => rfl) wide a w W hw p g f

/-- A product with an 8192 × 128 matrix that is block-diagonal over the sixteen tokens. -/
theorem down_at {φ₁ φ₂ : FTy} (a : FVec Ideal S256x8192 φ₁) (w : FVec Ideal S8192x128 φ₂)
    (W : Fin 512 → Fin 8 → EReal) (hw : ∀ g f g' e, w (ix2 (wide g f) (lane g' e)) = same g g' * W f e)
    (p : Fin 256) (g : Fin 16) (e : Fin 8) :
    matmul dot_S256x8192_S8192x128_S256x128_1_0_0_1_n_n none a w zero128 (ix2 p (lane g e))
      = ∑ f, a (ix2 p (wide g f)) * W f e :=
  matmul_blockdiag _ none wideEquiv wide (fun _ _ => rfl) lane a w W hw p g e

/-! ## The normalisation -/

section Norm
variable (M : FVec Ideal S128x128 .f32) (y : FVec Ideal S256x128 .f32) (gv cv : FVec Ideal S1x128 .f32)

/-- A block minus its product with the averaging matrix. -/
def centred : FVec Ideal S256x128 .f32 :=
  subf y (matmul dot_S256x128_S128x128_S256x128_1_0_0_1_n_n (some .fp32) y M zero128)

/-- The normalisation as the body spells it: centre, square, average, add the offset, reciprocal root, scale, shift. -/
def lnVec : FVec Ideal S256x128 .f32 :=
  addf (mulf (mulf (centred M y)
      (rsqrt (addf (matmul dot_S256x128_S128x128_S256x128_1_0_0_1_n_n (some .fp32) (mulf (centred M y) (centred M y)) M zero128)
        (broadcast S256x128 (Scalar.ofBits .f32 0x3727C5AC#32)))))
    (rows128 gv)) (rows128 cv)

variable {M} (hM : ∀ g e g' f, M (ix2 (lane g e) (lane g' f)) = same g g' * eighth)
include hM

/-- The product with the averaging matrix is, lane by lane, the mean of the lane's token. -/
theorem avg_at (z : FVec Ideal S256x128 .f32) (p : Fin 256) (g : Fin 16) (f : Fin 8) :
    matmul dot_S256x128_S128x128_S256x128_1_0_0_1_n_n (some .fp32) z M zero128 (ix2 p (lane g f))
      = mean8 (fun e => z (ix2 p (lane g e))) :=
  (proj_at (some .fp32) z M (fun _ _ => eighth) hM p g f).trans (sum_eighths _)

theorem centred_at (p : Fin 256) (g : Fin 16) (e : Fin 8) :
    centred M y (ix2 p (lane g e)) = y (ix2 p (lane g e)) - mean8 (fun k => y (ix2 p (lane g k))) := by
  show y _ - matmul dot_S256x128_S128x128_S256x128_1_0_0_1_n_n (some .fp32) y M zero128 (ix2 p (lane g e)) = _
  rw [avg_at hM y p g e]

/-- The body's normalisation at a lane is the layer normalisation of the lane's token. -/
theorem lnVec_at (G C : Fin 8 → EReal) (hg : ∀ g e, gv (ix2 (0 : Fin 1) (lane g e)) = G e)
    (hc : ∀ g e, cv (ix2 (0 : Fin 1) (lane g e)) = C e) (p : Fin 256) (g : Fin 16) (e : Fin 8) :
    lnVec M y gv cv (ix2 p (lane g e)) = layerNorm (fun k => y (ix2 p (lane g k))) G C e := by
  show centred M y (ix2 p (lane g e))
      * Ideal.rsqrt (matmul dot_S256x128_S128x128_S256x128_1_0_0_1_n_n (some .fp32) (mulf (centred M y) (centred M y)) M zero128
          (ix2 p (lane g e)) + Ideal.ofBits .f32 0x3727C5AC#32)
      * rows128 gv (ix2 p (lane g e)) + rows128 cv (ix2 p (lane g e)) = _
  rw [avg_at hM _ p g e, centred_at y hM p g e, rows128_at, rows128_at, hg, hc]
  have hsq : (fun k => mulf (centred M y) (centred M y) (ix2 p (lane g k)))
      = fun k => (y (ix2 p (lane g k)) - mean8 (fun k => y (ix2 p (lane g k))))
          * (y (ix2 p (lane g k)) - mean8 (fun k => y (ix2 p (lane g k)))) :=
    funext fun k => by
      show centred M y _ * centred M y _ = _
      rw [centred_at y hM p g k]
  rw [hsq]
  rfl

end Norm

/-! ## The attention half -/

section Attention
variable (x0 : FVec Ideal S256x128 .f32) (x1 : FVec Ideal S128x128 .bf16) (x2 : FVec Ideal S1x128 .f32)
  (x3 : FVec Ideal S128x128 .bf16)

/-- The block plus its attention, as the body spells it. -/
def attnVec : FVec Ideal S256x128 .f32 :=
  addf (shapeCast S256x128 x0 shapeCasts_S256x128_S256x128)
    (matmul dot_S256x128_S128x128_S256x128_1_0_0_1_n_n none
      (truncf .bf16 (cos (addf
        (matmul dot_S256x128_S128x128_S256x128_1_0_0_1_n_n none
          (truncf .bf16 (shapeCast S256x128 x0 shapeCasts_S256x128_S256x128) bitsLt_bf16_f32)
          (shapeCast S128x128 x1 shapeCasts_S128x128_S128x128 : FVec Ideal S128x128 .bf16) zero128)
        (rows128 x2))) bitsLt_bf16_f32)
      (shapeCast S128x128 x3 shapeCasts_S128x128_S128x128 : FVec Ideal S128x128 .bf16) zero128)

variable (P : Params)
  (h1 : ∀ g e g' f, x1 (ix2 (lane g e) (lane g' f)) = same g g' * P.win f e)
  (h2 : ∀ g e, x2 (ix2 (0 : Fin 1) (lane g e)) = P.tha e)
  (h3 : ∀ g f g' e, x3 (ix2 (lane g f) (lane g' e)) = same g g' * P.wout e f)
include h1 h2 h3

theorem attnVec_at (p : Fin 256) (g : Fin 16) (e : Fin 8) :
    attnVec x0 x1 x2 x3 (ix2 p (lane g e)) = resid1 P (fun k => x0 (ix2 p (lane g k))) e := by
  unfold attnVec
  rw [shapeCast_self x0, shapeCast_self x1, shapeCast_self x3]
  have hin : ∀ f, matmul dot_S256x128_S128x128_S256x128_1_0_0_1_n_n none
        (truncf .bf16 x0 bitsLt_bf16_f32) x1 zero128 (ix2 p (lane g f))
      = attnIn P (fun k => x0 (ix2 p (lane g k))) f := fun f =>
    proj_at none _ x1 (fun e f => P.win f e) h1 p g f
  show x0 (ix2 p (lane g e)) + matmul dot_S256x128_S128x128_S256x128_1_0_0_1_n_n none _ x3 zero128 (ix2 p (lane g e)) = _
  rw [proj_at none _ x3 (fun f e => P.wout e f) h3 p g e]
  refine congrArg (x0 (ix2 p (lane g e)) + ·) (Finset.sum_congr rfl fun f _ => ?_)
  show Ideal.cos (matmul dot_S256x128_S128x128_S256x128_1_0_0_1_n_n none (truncf .bf16 x0 bitsLt_bf16_f32) x1 zero128
      (ix2 p (lane g f)) + rows128 x2 (ix2 p (lane g f))) * P.wout e f = _
  rw [hin f, rows128_at, h2]
  rfl

end Attention

/-! ## The feed-forward half -/

section FeedForward
variable (H : FVec Ideal S256x128 .f32) (C : FVec Ideal S256x128 .bf16) (W1v : FVec Ideal S128x8192 .bf16)
  (x5 : FVec Ideal S1x8192 .f32) (x6 : FVec Ideal S8192x128 .bf16) (x7 : FVec Ideal S1x128 .f32)

/-- The normalised block plus its feed-forward block, as the body spells it. -/
def ffnVec : FVec Ideal S256x128 .f32 :=
  addf H (addf
    (matmul dot_S256x8192_S8192x128_S256x128_1_0_0_1_n_n none
      (truncf .bf16 (maximumf
        (addf (matmul dot_S256x128_S128x8192_S256x8192_1_0_0_1_n_n none C W1v zero8192) (rows8192 x5))
        (broadcast S256x8192 (Scalar.ofBits .f32 0x00000000#32))) bitsLt_bf16_f32)
      (shapeCast S8192x128 x6 shapeCasts_S8192x128_S8192x128 : FVec Ideal S8192x128 .bf16) zero128)
    (rows128 x7))

variable (P : Params) (hid : Fin 256 → Fin 16 → Fin 8 → EReal)
  (hH : ∀ p g e, H (ix2 p (lane g e)) = hid p g e)
  (hC : ∀ p g e, C (ix2 p (lane g e)) = Ideal.cos (hid p g e))
  (h4 : ∀ g e g' f, W1v (ix2 (lane g e) (wide g' f)) = same g g' * (P.w1 f e * Ideal.cos (P.thf e)))
  (h5 : ∀ g f, x5 (ix2 (0 : Fin 1) (wide g f)) = P.b1 f)
  (h6 : ∀ g f g' e, x6 (ix2 (wide g f) (lane g' e)) = same g g' * P.w2 e f)
  (h7 : ∀ g e, x7 (ix2 (0 : Fin 1) (lane g e)) = P.b2 e)
include hH hC h4 h5 h6 h7

theorem ffnVec_at (p : Fin 256) (g : Fin 16) (e : Fin 8) :
    ffnVec H C W1v x5 x6 x7 (ix2 p (lane g e))
      = hid p g e + ((∑ f, max ((∑ k, (Ideal.cos (hid p g k) * Ideal.cos (P.thf k)) * P.w1 f k) + P.b1 f) 0 * P.w2 e f)
          + P.b2 e) := by
  unfold ffnVec
  rw [shapeCast_self x6]
  have hup : ∀ f, matmul dot_S256x128_S128x8192_S256x8192_1_0_0_1_n_n none C W1v zero8192 (ix2 p (wide g f))
      = ∑ k, (Ideal.cos (hid p g k) * Ideal.cos (P.thf k)) * P.w1 f k := fun f =>
    (up_at C W1v (fun e f => P.w1 f e * Ideal.cos (P.thf e)) h4 p g f).trans
      (Finset.sum_congr rfl fun k _ => by
        rw [hC, mul_comm (P.w1 f k) (Ideal.cos (P.thf k)), ← mul_assoc])
  show H (ix2 p (lane g e)) + (matmul dot_S256x8192_S8192x128_S256x128_1_0_0_1_n_n none _ x6 zero128 (ix2 p (lane g e))
      + rows128 x7 (ix2 p (lane g e))) = _
  rw [hH, rows128_at, h7, down_at _ x6 (fun f e => P.w2 e f) h6 p g e]
  refine congrArg (fun s => hid p g e + (s + P.b2 e)) (Finset.sum_congr rfl fun f _ => ?_)
  show max (matmul dot_S256x128_S128x8192_S256x8192_1_0_0_1_n_n none C W1v zero8192 (ix2 p (wide g f))
      + rows8192 x5 (ix2 p (wide g f))) (Ideal.ofBits .f32 0x00000000#32) * P.w2 e f = _
  rw [hup f, rows8192_at, h5, Ideal.ofBits_zero_f32]

end FeedForward

/-! ## The whole body -/

section Body
variable (P : Params)
  (x0 : FVec Ideal S256x128 .f32) (x1 : FVec Ideal S128x128 .bf16) (x2 : FVec Ideal S1x128 .f32)
  (x3 : FVec Ideal S128x128 .bf16) (x4 : FVec Ideal S128x8192 .bf16) (x5 : FVec Ideal S1x8192 .f32)
  (x6 : FVec Ideal S8192x128 .bf16) (x7 : FVec Ideal S1x128 .f32) (x8 : FVec Ideal S128x128 .f32)
  (x9 x10 x11 x12 : FVec Ideal S1x128 .f32)
  (h1 : ∀ g e g' f, x1 (ix2 (lane g e) (lane g' f)) = same g g' * P.win f e)
  (h2 : ∀ g e, x2 (ix2 (0 : Fin 1) (lane g e)) = P.tha e)
  (h3 : ∀ g f g' e, x3 (ix2 (lane g f) (lane g' e)) = same g g' * P.wout e f)
  (h4 : ∀ g e g' f, x4 (ix2 (lane g e) (wide g' f)) = same g g' * (P.w1 f e * Ideal.cos (P.thf e)))
  (h5 : ∀ g f, x5 (ix2 (0 : Fin 1) (wide g f)) = P.b1 f)
  (h6 : ∀ g f g' e, x6 (ix2 (wide g f) (lane g' e)) = same g g' * P.w2 e f)
  (h7 : ∀ g e, x7 (ix2 (0 : Fin 1) (lane g e)) = P.b2 e)
  (h8 : ∀ g e g' f, x8 (ix2 (lane g e) (lane g' f)) = same g g' * eighth)
  (h9 : ∀ g e, x9 (ix2 (0 : Fin 1) (lane g e)) = P.g1 e)
  (h10 : ∀ g e, x10 (ix2 (0 : Fin 1) (lane g e)) = P.c1 e)
  (h11 : ∀ g e, x11 (ix2 (0 : Fin 1) (lane g e)) = P.g2 e)
  (h12 : ∀ g e, x12 (ix2 (0 : Fin 1) (lane g e)) = P.c2 e)
include h1 h2 h3 h4 h5 h6 h7 h8 h9 h10 h11 h12

/-- The first half of the body at a lane: the first normalisation of the lane's token. -/
theorem hidden_at (p : Fin 256) (g : Fin 16) (e : Fin 8) :
    k0_pay3 (F := Ideal) x0 x1 x2 x3 x8 x9 x10 (ix2 p (lane g e)) = TokenMath.hidden P (fun k => x0 (ix2 p (lane g k))) e := by
  have e3 : k0_pay3 (F := Ideal) x0 x1 x2 x3 x8 x9 x10 = lnVec (k0_pay2 (F := Ideal) x8) (attnVec x0 x1 x2 x3) x9 x10 := rfl
  have e2 : k0_pay2 (F := Ideal) x8 = x8 := shapeCast_self x8 _
  rw [e3, e2, lnVec_at (attnVec x0 x1 x2 x3) x9 x10 h8 P.g1 P.c1 h9 h10 p g e]
  unfold TokenMath.hidden
  exact congrArg (fun y => layerNorm y P.g1 P.c1 e) (funext fun k => attnVec_at x0 x1 x2 x3 P h1 h2 h3 p g k)

/-- The value the body stores at row p, token g, feature e is the token map of the lane's token. -/
theorem body_at (p : Fin 256) (g : Fin 16) (e : Fin 8) :
    k0_pay1 (F := Ideal) (k0_pay2 (F := Ideal) x8) (k0_pay3 (F := Ideal) x0 x1 x2 x3 x8 x9 x10) (k0_pay4 (F := Ideal) x0 x1 x2 x3 x8 x9 x10) (k0_pay5 (F := Ideal) x4) x5 x6 x7 x11 x12
        (ix2 p (lane g e))
      = tokenOut P (fun k => x0 (ix2 p (lane g k))) e := by
  have e1 : k0_pay1 (F := Ideal) (k0_pay2 (F := Ideal) x8) (k0_pay3 (F := Ideal) x0 x1 x2 x3 x8 x9 x10) (k0_pay4 (F := Ideal) x0 x1 x2 x3 x8 x9 x10) (k0_pay5 (F := Ideal) x4) x5 x6 x7 x11 x12
      = lnVec (k0_pay2 (F := Ideal) x8) (ffnVec (k0_pay3 (F := Ideal) x0 x1 x2 x3 x8 x9 x10) (k0_pay4 (F := Ideal) x0 x1 x2 x3 x8 x9 x10) (k0_pay5 (F := Ideal) x4) x5 x6 x7)
          x11 x12 := rfl
  have e2 : k0_pay2 (F := Ideal) x8 = x8 := shapeCast_self x8 _
  have e5 : k0_pay5 (F := Ideal) x4 = x4 := shapeCast_self x4 _
  rw [e1, e2, e5, lnVec_at _ x11 x12 h8 P.g2 P.c2 h11 h12 p g e]
  unfold tokenOut
  refine congrArg (fun y => layerNorm y P.g2 P.c2 e) (funext fun k => ?_)
  refine (ffnVec_at _ _ x4 x5 x6 x7 P (fun p g e => TokenMath.hidden P (fun k => x0 (ix2 p (lane g k))) e)
    (fun p g e => hidden_at P x0 x1 x2 x3 x4 x5 x6 x7 x8 x9 x10 x11 x12 h1 h2 h3 h4 h5 h6 h7 h8 h9 h10 h11 h12 p g e)
    (fun p g e => ?_) h4 h5 h6 h7 p g k).trans rfl
  show Ideal.cos (k0_pay3 (F := Ideal) x0 x1 x2 x3 x8 x9 x10 (ix2 p (lane g e))) = _
  rw [hidden_at P x0 x1 x2 x3 x4 x5 x6 x7 x8 x9 x10 x11 x12 h1 h2 h3 h4 h5 h6 h7 h8 h9 h10 h11 h12 p g e]

end Body

end Cert.BlockBody

end
-- ==== Proof.BlockReads.lean ====
/-
  Where each window's block sits in its array at a grid point.

  The packed input and the packed result are cut into 32 blocks of 256 rows: grid point t stages rows
  256 t … 256 t + 255. The twelve launched weight arrays are staged whole at every point: their block index is
  (0, 0), so a block's element has the same coordinates in the array.
-/
import proofs.«171985_j65481071400382_2_alg».proof.Proof.Gen.KernelIdeal.Frame
import Idealize.ShloMosaic.Lib.Pipeline.Value
import Idealize.ShloMosaic.Lib.ValueIdx

noncomputable section

namespace Cert.BlockReads

open Cert.KernelIdeal Cert.KernelIdeal.Gen Idealize.ShloMosaic Idealize.ShloMosaic.TcCoe
  Idealize.ShloMosaic.ValueIdx Idealize.SL.Sem

variable (m : (ℓ : Loc nD τ sig) → Buf (Elt Ideal) ℓ)

/-! ## Where each window's block sits -/

theorem hz : (![0, 0] : Fin 2 → Nat) = fun _ => 0 := funext fun a => by fin_cases a <;> rfl

/-- The packed input and the packed result move down 256 rows per grid point. -/
theorem idx_w0 : ∀ t : Fin cfg0.N, win0_0.index t (0 : Fin 2) = t.val ∧ win0_0.index t (1 : Fin 2) = 0 :=
  (by decide +kernel : ∀ t : Fin grid0.N, _)
theorem idx_w13 : ∀ t : Fin cfg0.N, win0_13.index t (0 : Fin 2) = t.val ∧ win0_13.index t (1 : Fin 2) = 0 :=
  (by decide +kernel : ∀ t : Fin grid0.N, _)
/-- Every other window stays at block (0, 0). -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)

theorem t_lt (t : Fin cfg0.N) : t.val < 32 := lt_of_lt_of_eq t.isLt N_0

/-- Row p of grid point t's block is row 256 t + p of the packed arrays. -/
def rowOf (t : Fin cfg0.N) (p : Fin 256) : Fin 8192 := ⟨256 * t.val + p.val, by have := t_lt t; omega⟩

/-- Window 1 stages its whole array at every point. -/
theorem blk1_at (c : Dev nD) (t : Fin cfg0.N) (y : S128x128.Idx) :
    iblk m c 1 t y = (V m c main_v9 : S128x128.Idx → EReal) y := by
  show (V m c main_v9 : S128x128.Idx → EReal) (((cfg0.win 1).blk t).view.emb y) = _
  refine congrArg (V m c main_v9 : S128x128.Idx → EReal) (funext fun a => Fin.ext ?_)
  obtain ⟨e0, e1⟩ := idx_w1 t
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2 stages its whole array at every point. -/
theorem blk2_at (c : Dev nD) (t : Fin cfg0.N) (y : S1x128.Idx) :
    iblk m c 2 t y = (V m c main_v44 : S1x128.Idx → EReal) y := by
  show (V m c main_v44 : S1x128.Idx → EReal) (((cfg0.win 2).blk t).view.emb y) = _
  refine congrArg (V m c main_v44 : S1x128.Idx → EReal) (funext fun a => Fin.ext ?_)
  obtain ⟨e0, e1⟩ := idx_w2 t
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Window 3 stages its whole array at every point. -/
theorem blk3_at (c : Dev nD) (t : Fin cfg0.N) (y : S128x128.Idx) :
    iblk m c 3 t y = (V m c main_v18 : S128x128.Idx → EReal) y := by
  show (V m c main_v18 : S128x128.Idx → EReal) (((cfg0.win 3).blk t).view.emb y) = _
  refine congrArg (V m c main_v18 : S128x128.Idx → EReal) (funext fun a => Fin.ext ?_)
  obtain ⟨e0, e1⟩ := idx_w3 t
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4 stages its whole array at every point. -/
theorem blk4_at (c : Dev nD) (t : Fin cfg0.N) (y : S128x8192.Idx) :
    iblk m c 4 t y = (V m c main_v31 : S128x8192.Idx → EReal) y := by
  show (V m c main_v31 : S128x8192.Idx → EReal) (((cfg0.win 4).blk t).view.emb y) = _
  refine congrArg (V m c main_v31 : S128x8192.Idx → EReal) (funext fun a => Fin.ext ?_)
  obtain ⟨e0, e1⟩ := idx_w4 t
  match a with
  | ⟨0, _⟩ => show win0_4.index t (0 : Fin 2) * 128 + 1 * (y 0).val = (y 0).val; rw [e0]; omega
  | ⟨1, _⟩ => show win0_4.index t (1 : Fin 2) * 8192 + 1 * (y 1).val = (y 1).val; rw [e1]; omega

/-- Window 5 stages its whole array at every point. -/
theorem blk5_at (c : Dev nD) (t : Fin cfg0.N) (y : S1x8192.Idx) :
    iblk m c 5 t y = (V m c main_v48 : S1x8192.Idx → EReal) y := by
  show (V m c main_v48 : S1x8192.Idx → EReal) (((cfg0.win 5).blk t).view.emb y) = _
  refine congrArg (V m c main_v48 : S1x8192.Idx → EReal) (funext fun a => Fin.ext ?_)
  obtain ⟨e0, e1⟩ := idx_w5 t
  match a with
  | ⟨0, _⟩ => show win0_5.index t (0 : Fin 2) * 1 + 1 * (y 0).val = (y 0).val; rw [e0]; omega
  | ⟨1, _⟩ => show win0_5.index t (1 : Fin 2) * 8192 + 1 * (y 1).val = (y 1).val; rw [e1]; omega

/-- Window 6 stages its whole array at every point. -/
theorem blk6_at (c : Dev nD) (t : Fin cfg0.N) (y : S8192x128.Idx) :
    iblk m c 6 t y = (V m c main_v40 : S8192x128.Idx → EReal) y := by
  show (V m c main_v40 : S8192x128.Idx → EReal) (((cfg0.win 6).blk t).view.emb y) = _
  refine congrArg (V m c main_v40 : S8192x128.Idx → EReal) (funext fun a => Fin.ext ?_)
  obtain ⟨e0, e1⟩ := idx_w6 t
  match a with
  | ⟨0, _⟩ => show win0_6.index t (0 : Fin 2) * 8192 + 1 * (y 0).val = (y 0).val; rw [e0]; omega
  | ⟨1, _⟩ => show win0_6.index t (1 : Fin 2) * 128 + 1 * (y 1).val = (y 1).val; rw [e1]; omega

/-- Window 7 stages its whole array at every point. -/
theorem blk7_at (c : Dev nD) (t : Fin cfg0.N) (y : S1x128.Idx) :
    iblk m c 7 t y = (V m c main_v52 : S1x128.Idx → EReal) y := by
  show (V m c main_v52 : S1x128.Idx → EReal) (((cfg0.win 7).blk t).view.emb y) = _
  refine congrArg (V m c main_v52 : S1x128.Idx → EReal) (funext fun a => Fin.ext ?_)
  obtain ⟨e0, e1⟩ := idx_w7 t
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Window 8 stages its whole array at every point. -/
theorem blk8_at (c : Dev nD) (t : Fin cfg0.N) (y : S128x128.Idx) :
    iblk m c 8 t y = (V m c main_v78 : S128x128.Idx → EReal) y := by
  show (V m c main_v78 : S128x128.Idx → EReal) (((cfg0.win 8).blk t).view.emb y) = _
  refine congrArg (V m c main_v78 : S128x128.Idx → EReal) (funext fun a => Fin.ext ?_)
  obtain ⟨e0, e1⟩ := idx_w8 t
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

/-- Window 9 stages its whole array at every point. -/
theorem blk9_at (c : Dev nD) (t : Fin cfg0.N) (y : S1x128.Idx) :
    iblk m c 9 t y = (V m c main_v56 : S1x128.Idx → EReal) y := by
  show (V m c main_v56 : S1x128.Idx → EReal) (((cfg0.win 9).blk t).view.emb y) = _
  refine congrArg (V m c main_v56 : S1x128.Idx → EReal) (funext fun a => Fin.ext ?_)
  obtain ⟨e0, e1⟩ := idx_w9 t
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

/-- Window 10 stages its whole array at every point. -/
theorem blk10_at (c : Dev nD) (t : Fin cfg0.N) (y : S1x128.Idx) :
    iblk m c 10 t y = (V m c main_v60 : S1x128.Idx → EReal) y := by
  show (V m c main_v60 : S1x128.Idx → EReal) (((cfg0.win 10).blk t).view.emb y) = _
  refine congrArg (V m c main_v60 : S1x128.Idx → EReal) (funext fun a => Fin.ext ?_)
  obtain ⟨e0, e1⟩ := idx_w10 t
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-- Window 11 stages its whole array at every point. -/
theorem blk11_at (c : Dev nD) (t : Fin cfg0.N) (y : S1x128.Idx) :
    iblk m c 11 t y = (V m c main_v64 : S1x128.Idx → EReal) y := by
  show (V m c main_v64 : S1x128.Idx → EReal) (((cfg0.win 11).blk t).view.emb y) = _
  refine congrArg (V m c main_v64 : S1x128.Idx → EReal) (funext fun a => Fin.ext ?_)
  obtain ⟨e0, e1⟩ := idx_w11 t
  match a with
  | ⟨0, _⟩ => show win0_11.index t (0 : Fin 2) * 1 + 1 * (y 0).val = (y 0).val; rw [e0]; omega
  | ⟨1, _⟩ => show win0_11.index t (1 : Fin 2) * 128 + 1 * (y 1).val = (y 1).val; rw [e1]; omega

/-- Window 12 stages its whole array at every point. -/
theorem blk12_at (c : Dev nD) (t : Fin cfg0.N) (y : S1x128.Idx) :
    iblk m c 12 t y = (V m c main_v68 : S1x128.Idx → EReal) y := by
  show (V m c main_v68 : S1x128.Idx → EReal) (((cfg0.win 12).blk t).view.emb y) = _
  refine congrArg (V m c main_v68 : S1x128.Idx → EReal) (funext fun a => Fin.ext ?_)
  obtain ⟨e0, e1⟩ := idx_w12 t
  match a with
  | ⟨0, _⟩ => show win0_12.index t (0 : Fin 2) * 1 + 1 * (y 0).val = (y 0).val; rw [e0]; omega
  | ⟨1, _⟩ => show win0_12.index t (1 : Fin 2) * 128 + 1 * (y 1).val = (y 1).val; rw [e1]; omega

/-- The packed input's block at point t. -/
theorem blk0_at (c : Dev nD) (t : Fin cfg0.N) (p : Fin 256) (l : Fin 128) :
    iblk m c 0 t (ix2 p l) = (V m c main_v0 : S8192x128.Idx → EReal) (ix2 (rowOf t p) l) := by
  show (V m c main_v0 : S8192x128.Idx → EReal) (((cfg0.win 0).blk t).view.emb (ix2 p l)) = _
  refine congrArg (V m c main_v0 : S8192x128.Idx → EReal) (funext fun a => Fin.ext ?_)
  obtain ⟨e0, e1⟩ := idx_w0 t
  match a with
  | ⟨0, _⟩ => show win0_0.index t (0 : Fin 2) * 256 + 1 * p.val = 256 * t.val + p.val; rw [e0]; omega
  | ⟨1, _⟩ => show win0_0.index t (1 : Fin 2) * 128 + 1 * l.val = l.val; rw [e1]; omega

/-- Where an element of the result's block at point t sits in the packed result. -/
theorem emb13_at (t : Fin cfg0.N) (p : Fin 256) (l : Fin 128) :
    ((cfg0.win 13).blk t).view.emb (ix2 p l) = (ix2 (rowOf t p) l : S8192x128.Idx) := by
  funext a
  apply Fin.ext
  obtain ⟨e0, e1⟩ := idx_w13 t
  match a with
  | ⟨0, _⟩ => show win0_13.index t (0 : Fin 2) * 256 + 1 * p.val = 256 * t.val + p.val; rw [e0]; omega
  | ⟨1, _⟩ => show win0_13.index t (1 : Fin 2) * 128 + 1 * l.val = l.val; rw [e1]; omega

end Cert.BlockReads

end
-- ==== Proof.PackedRows.lean ====
/-
  The packed input rows, the seven tiled vectors the kernel is launched on, and the final un-packing, read at
  coordinates. The input of 32 × 4096 tokens of eight features is viewed, in row-major order, as 8192 rows of 128 lanes:
  sixteen consecutive tokens side by side, so that lane `8 g + e` of row `r` is feature `e` of token `16 r + g`.
  Each of the six vectors of eight entries (a phase, a bias, two scales, two shifts) is written sixteen times side by
  side into one row of 128 lanes, lane `8 g + e` holding entry `e`; the bias of 512 entries likewise into one row of
  8192 lanes, lane `512 g + f` holding entry `f`. The result of 8192 × 128 is viewed back as 32 × 4096 × 8 the same way.
  Every statement here is the arithmetic of row-major positions.
-/
import proofs.«171985_j65481071400382_2_alg».proof.Proof.Gen.KernelIdeal.Frame
import proofs.«171985_j65481071400382_2_alg».proof.Proof.TokenMath
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.PackedRows

open Cert.KernelIdeal Cert.KernelIdeal.Gen Cert.TokenMath Idealize.ShloMosaic Idealize.ShloMosaic.TcCoe Idealize.ShloMosaic.ValueIdx Idealize.SL.Sem

variable (m : (ℓ : Loc nD τ sig) → Buf (Elt Ideal) ℓ) (c : Dev nD)

/-! ## Layout facts, for any element type -/

section Layout

variable {α : Type}

/-- A vector of `d` entries written sixteen times side by side: viewed as one row `[1, d]`, repeated over sixteen
    rows `[16, d]`, flattened to `[n]` with `n = 16 d`, and viewed as one row `[1, n]`. Lane `d g + e` of the result
    is entry `e` of the vector, whatever the copy `g`. -/
theorem tile_apply {d n : ℕ} (x : (⟨1, ![d]⟩ : Shape).Idx → α)
    (h1 : (⟨1, ![d]⟩ : Shape).ShapeCasts ⟨2, ![1, d]⟩)
    (hb : (⟨2, ![1, d]⟩ : Shape).BroadcastsInDim ⟨2, ![16, d]⟩ ![0, 1])
    (h2 : (⟨2, ![16, d]⟩ : Shape).ShapeCasts ⟨1, ![n]⟩)
    (h3 : (⟨1, ![n]⟩ : Shape).ShapeCasts ⟨2, ![1, n]⟩)
    (g : Fin 16) (e : Fin d) (l : Fin n) (hl : l.val = d * g.val + e.val) :
    shapeCast ⟨2, ![1, n]⟩ (shapeCast ⟨1, ![n]⟩ (broadcastInDim ⟨2, ![16, d]⟩ ![0, 1] hb (shapeCast ⟨2, ![1, d]⟩ x h1)) h2) h3
        (ix2 (0 : Fin 1) l) = x (ix1 e) := by
  -- the outer view as one row: position `(0, l)` is position `l`
  refine (shapeCast_a_1a_apply _ h3 0 l).trans ?_
  -- the flattening: position `l = d g + e` is row `g`, column `e`
  refine (shapeCast_apply _ h2 (ix1 l) (ix2 g e) (by
    rw [Shape.rowMajor_val_two, Shape.rowMajor_val_one]
    show g.val * d + e.val = l.val
    rw [hl, Nat.mul_comm])).trans ?_
  -- the repetition: every row is the one row
  refine (broadcastInDim_apply ![0, 1] hb _ (ix2 g e) (ix2 (0 : Fin 1) e) fun a => ?_).trans ?_
  · match a with
    | ⟨0, _⟩ => rfl
    | ⟨1, _⟩ =>
      show e.val = if d = 1 then 0 else e.val
      split
      · have := e.isLt; omega
      · rfl
  -- the inner view as one row
  · exact shapeCast_a_1a_apply x h1 0 e

end Layout

/-! ## The arrays the region is entered with, as terms over the arguments -/

/-- Reads one array at the region's entry as the composition of the operations that wrote it, over the arguments. -/
local macro "entry_term" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, Gen.hostOps0_8, Gen.hostOps0_9, List.flatten_cons, List.flatten_nil,
               List.append_nil, List.cons_append, List.nil_append]
             after_results_simp
             rfl))

set_option maxRecDepth 16384 in
set_option maxHeartbeats 2000000 in
/-- The first tiled vector: the attention's phase, sixteen times side by side. -/
theorem tha_term : (V m c main_v44 : S1x128.Idx → EReal) =
    shapeCast S1x128 (shapeCast S128 (broadcastInDim S16x8 ![0, 1] bcast_S1x8_S16x8_0_1
      (shapeCast S1x8 (m ((c : Thread nD τ).loc main_arg2)) shapeCasts_S8_S1x8)) shapeCasts_S16x8_S128) shapeCasts_S128_S1x128 := by
  entry_term

/-- Lane `8 g + e` of the tiled phase of the attention is its entry `e`. -/
theorem tha_at (g : Fin 16) (e : Fin 8) :
    (V m c main_v44 : S1x128.Idx → EReal) (ix2 (0 : Fin 1) (lane g e)) = m ((c : Thread nD τ).loc main_arg2) (ix1 e) := by
  rw [tha_term]
  exact tile_apply _ _ _ _ _ g e (lane g e) rfl

set_option maxRecDepth 16384 in
set_option maxHeartbeats 2000000 in
/-- The bias of the second linear map of the feed-forward block, sixteen times side by side. -/
theorem b2_term : (V m c main_v52 : S1x128.Idx → EReal) =
    shapeCast S1x128 (shapeCast S128 (broadcastInDim S16x8 ![0, 1] bcast_S1x8_S16x8_0_1
      (shapeCast S1x8 (m ((c : Thread nD τ).loc main_arg8)) shapeCasts_S8_S1x8)) shapeCasts_S16x8_S128) shapeCasts_S128_S1x128 := by
  entry_term

/-- Lane `8 g + e` of the tiled bias of the second linear map is its entry `e`. -/
theorem b2_at (g : Fin 16) (e : Fin 8) :
    (V m c main_v52 : S1x128.Idx → EReal) (ix2 (0 : Fin 1) (lane g e)) = m ((c : Thread nD τ).loc main_arg8) (ix1 e) := by
  rw [b2_term]
  exact tile_apply _ _ _ _ _ g e (lane g e) rfl

set_option maxRecDepth 16384 in
set_option maxHeartbeats 2000000 in
/-- The scale of the first normalisation, sixteen times side by side. -/
theorem g1_term : (V m c main_v56 : S1x128.Idx → EReal) =
    shapeCast S1x128 (shapeCast S128 (broadcastInDim S16x8 ![0, 1] bcast_S1x8_S16x8_0_1
      (shapeCast S1x8 (m ((c : Thread nD τ).loc main_arg9)) shapeCasts_S8_S1x8)) shapeCasts_S16x8_S128) shapeCasts_S128_S1x128 := by
  entry_term

/-- Lane `8 g + e` of the tiled scale of the first normalisation is its entry `e`. -/
theorem g1_at (g : Fin 16) (e : Fin 8) :
    (V m c main_v56 : S1x128.Idx → EReal) (ix2 (0 : Fin 1) (lane g e)) = m ((c : Thread nD τ).loc main_arg9) (ix1 e) := by
  rw [g1_term]
  exact tile_apply _ _ _ _ _ g e (lane g e) rfl

set_option maxRecDepth 16384 in
set_option maxHeartbeats 2000000 in
/-- The shift of the first normalisation, sixteen times side by side. -/
theorem c1_term : (V m c main_v60 : S1x128.Idx → EReal) =
    shapeCast S1x128 (shapeCast S128 (broadcastInDim S16x8 ![0, 1] bcast_S1x8_S16x8_0_1
      (shapeCast S1x8 (m ((c : Thread nD τ).loc main_arg10)) shapeCasts_S8_S1x8)) shapeCasts_S16x8_S128) shapeCasts_S128_S1x128 := by
  entry_term

/-- Lane `8 g + e` of the tiled shift of the first normalisation is its entry `e`. -/
theorem c1_at (g : Fin 16) (e : Fin 8) :
    (V m c main_v60 : S1x128.Idx → EReal) (ix2 (0 : Fin 1) (lane g e)) = m ((c : Thread nD τ).loc main_arg10) (ix1 e) := by
  rw [c1_term]
  exact tile_apply _ _ _ _ _ g e (lane g e) rfl

set_option maxRecDepth 16384 in
set_option maxHeartbeats 2000000 in
/-- The scale of the second normalisation, sixteen times side by side. -/
theorem g2_term : (V m c main_v64 : S1x128.Idx → EReal) =
    shapeCast S1x128 (shapeCast S128 (broadcastInDim S16x8 ![0, 1] bcast_S1x8_S16x8_0_1
      (shapeCast S1x8 (m ((c : Thread nD τ).loc main_arg11)) shapeCasts_S8_S1x8)) shapeCasts_S16x8_S128) shapeCasts_S128_S1x128 := by
  entry_term

/-- Lane `8 g + e` of the tiled scale of the second normalisation is its entry `e`. -/
theorem g2_at (g : Fin 16) (e : Fin 8) :
    (V m c main_v64 : S1x128.Idx → EReal) (ix2 (0 : Fin 1) (lane g e)) = m ((c : Thread nD τ).loc main_arg11) (ix1 e) := by
  rw [g2_term]
  exact tile_apply _ _ _ _ _ g e (lane g e) rfl

set_option maxRecDepth 16384 in
set_option maxHeartbeats 2000000 in
/-- The shift of the second normalisation, sixteen times side by side. -/
theorem c2_term : (V m c main_v68 : S1x128.Idx → EReal) =
    shapeCast S1x128 (shapeCast S128 (broadcastInDim S16x8 ![0, 1] bcast_S1x8_S16x8_0_1
      (shapeCast S1x8 (m ((c : Thread nD τ).loc main_arg12)) shapeCasts_S8_S1x8)) shapeCasts_S16x8_S128) shapeCasts_S128_S1x128 := by
  entry_term

/-- Lane `8 g + e` of the tiled shift of the second normalisation is its entry `e`. -/
theorem c2_at (g : Fin 16) (e : Fin 8) :
    (V m c main_v68 : S1x128.Idx → EReal) (ix2 (0 : Fin 1) (lane g e)) = m ((c : Thread nD τ).loc main_arg12) (ix1 e) := by
  rw [c2_term]
  exact tile_apply _ _ _ _ _ g e (lane g e) rfl

set_option maxRecDepth 16384 in
set_option maxHeartbeats 2000000 in
/-- The bias of the first linear map of the feed-forward block (512 hidden features), sixteen times side by side. -/
theorem b1_term : (V m c main_v48 : S1x8192.Idx → EReal) =
    shapeCast S1x8192 (shapeCast S8192 (broadcastInDim S16x512 ![0, 1] bcast_S1x512_S16x512_0_1
      (shapeCast S1x512 (m ((c : Thread nD τ).loc main_arg6)) shapeCasts_S512_S1x512)) shapeCasts_S16x512_S8192) shapeCasts_S8192_S1x8192 := by
  entry_term

/-- Lane `512 g + f` of the tiled bias of the first linear map is its entry `f`. -/
theorem b1_at (g : Fin 16) (f : Fin 512) :
    (V m c main_v48 : S1x8192.Idx → EReal) (ix2 (0 : Fin 1) (wide g f)) = m ((c : Thread nD τ).loc main_arg6) (ix1 f) := by
  rw [b1_term]
  exact tile_apply _ _ _ _ _ g f (wide g f) rfl

/-! ## The packed input rows -/

set_option maxRecDepth 16384 in
set_option maxHeartbeats 2000000 in
/-- The packed input: the 32 × 4096 × 8 argument in row-major order under the shape 8192 × 128. -/
theorem x_term : (V m c main_v0 : S8192x128.Idx → EReal) =
    shapeCast S8192x128 (m ((c : Thread nD τ).loc main_arg0)) shapeCasts_S32x4096x8_S8192x128 := by
  entry_term

/-- Lane `8 g + e` of packed row `r` is feature `e` of token `16 r + g`, that is of row
    `((16 r + g) / 4096, (16 r + g) % 4096)` of the argument: both sit at row-major position `128 r + 8 g + e`. -/
theorem x_at (r : Fin 8192) (g : Fin 16) (e : Fin 8) :
    (V m c main_v0 : S8192x128.Idx → EReal) (ix2 r (lane g e))
      = m ((c : Thread nD τ).loc main_arg0) (ix3 (tokB r g) (tokS r g) e) := by
  rw [x_term]
  refine shapeCast_apply _ shapeCasts_S32x4096x8_S8192x128 (ix2 r (lane g e)) (ix3 (tokB r g) (tokS r g) e) ?_
  rw [Shape.rowMajor_val_three, Shape.rowMajor_val_two]
  show ((tokB r g).val * 4096 + (tokS r g).val) * 8 + e.val = r.val * 128 + (lane g e).val
  simp only [tokB_val, tokS_val, lane_val]
  omega

/-! ## The final un-packing -/

/-- The 8192 × 128 result read under the shape 32 × 4096 × 8: feature `e` of row `(b, s)` is lane
    `8 ((4096 b + s) % 16) + e` of packed row `(4096 b + s) / 16`: both sit at row-major position `8 (4096 b + s) + e`. -/
theorem unpack_at (y : S8192x128.Idx → EReal) (b : Fin 32) (s : Fin 4096) (e : Fin 8) :
    shapeCast S32x4096x8 y shapeCasts_S8192x128_S32x4096x8 (ix3 b s e)
      = y (ix2 (⟨(4096 * b.val + s.val) / 16, by omega⟩ : Fin 8192) (lane (⟨(4096 * b.val + s.val) % 16, by omega⟩ : Fin 16) e)) := by
  refine shapeCast_apply y shapeCasts_S8192x128_S32x4096x8 (ix3 b s e) _ ?_
  rw [Shape.rowMajor_val_three, Shape.rowMajor_val_two]
  show (4096 * b.val + s.val) / 16 * 128 + (8 * ((4096 * b.val + s.val) % 16) + e.val) = (b.val * 4096 + s.val) * 8 + e.val
  omega

/-- The token that sits in slot `(4096 b + s) % 16` of packed row `(4096 b + s) / 16` is row `(b, s)`. -/
theorem tok_of (b : Fin 32) (s : Fin 4096) :
    tokB (⟨(4096 * b.val + s.val) / 16, by omega⟩ : Fin 8192) (⟨(4096 * b.val + s.val) % 16, by omega⟩ : Fin 16) = b
      ∧ tokS (⟨(4096 * b.val + s.val) / 16, by omega⟩ : Fin 8192) (⟨(4096 * b.val + s.val) % 16, by omega⟩ : Fin 16) = s := by
  refine ⟨Fin.ext ?_, Fin.ext ?_⟩
  · simp only [tokB_val]; omega
  · simp only [tokS_val]; omega

end Cert.PackedRows

end
-- ==== Proof.PackedWeights.lean ====
/-
  The five block-diagonal weight arrays the kernel is launched on, read at coordinates.

  Before its one region the program packs sixteen tokens of eight features into one row of 128 lanes, and every
  per-token linear map becomes one matrix product with a block-diagonal matrix: sixteen copies of the small weight
  matrix down the diagonal. The program builds each of them as the Kronecker product of the 16 × 16 identity with the
  small matrix mat of shape p × q: both factors are spread over a four-axis array 16 × p × 16 × q (the identity along
  axes 0 and 2, mat along axes 1 and 3), multiplied entry by entry, and the product is reshaped to (16 p) × (16 q).
  Row-major order sends the four coordinates (g, e, g', f) to row p g + e and column q g' + f, so the entry at
  (row of token g and feature e, column of token g' and feature f) is

      [g = g'] · mat (e, f).

  The identity itself is spelled "row coordinate plus zero equals column coordinate", converted from a one-bit word to a
  float: one where the coordinates agree and zero elsewhere. The narrowing of the product to a shorter float format is
  the identity map on extended reals. The small matrices are the transposed weights (so mat (e, f) is the weight at
  (f, e)), for the first feed-forward map the weight times the cosine of the phase of its input feature, and for
  the averaging matrix the constant quotient 1 / 8.
-/
import proofs.«171985_j65481071400382_2_alg».proof.Proof.Gen.KernelIdeal.Frame
import proofs.«171985_j65481071400382_2_alg».proof.Proof.TokenMath
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.PackedWeights

open Cert.KernelIdeal Cert.KernelIdeal.Gen Cert.TokenMath Idealize.ShloMosaic Idealize.ShloMosaic.TcCoe Idealize.ShloMosaic.ValueIdx Idealize.SL.Sem

/-! ## The identity matrix of the packing -/

/-- The 16 × 16 identity matrix as the program spells it: the comparison "row coordinate plus zero equals column
    coordinate", a one-bit word, converted to a float. -/
abbrev eyeT : FVec Ideal S16x16 .f32 :=
  uitofp .f32 (cmpi .eq (addi (iotaInDim S16x16 32 0) (broadcastInDim S16x16 ![] bcast_S_S16x16 (constantI S_ 32 0#32))) (iotaInDim S16x16 32 1))

/-- Its entry at (g, g') is one when g = g' and zero otherwise: the two coordinates are below 16, so their 32-bit
    words are equal exactly when they are. -/
theorem eyeT_at (g g' : Fin 16) : eyeT (ix2 g g') = same g g' := by
  show (((IntOp.cmpi .eq (IntOp.addi (BitVec.ofNat 32 g.val) 0#32) (BitVec.ofNat 32 g'.val)).toNat : ℝ) : EReal) = _
  unfold same
  by_cases h : g = g'
  · subst h; simp [IntOp.cmpi, IntOp.addi]
  · have hne : (BitVec.ofNat 32 g.val == BitVec.ofNat 32 g'.val) = false := by
      rw [beq_eq_false_iff_ne]; intro he
      have h2 := congrArg BitVec.toNat he
      simp only [BitVec.toNat_ofNat] at h2
      exact h (Fin.ext (by omega))
    simp [IntOp.cmpi, IntOp.addi, hne, h]

/-! ## The small matrices at an index -/

/-- The transpose of an 8 × 8 array at (e, f) is the array at (f, e). -/
theorem transpose88_at (x : FVec Ideal S8x8 .f32) (e f : Fin 8) :
    transpose S8x8 [1, 0] x transposes_S8x8_S8x8_1_0 (ix2 e f) = x (ix2 f e) :=
  transpose_apply _ _ _ (ix2 e f) (ix2 f e) (fun b => by
    match b with | ⟨0, _⟩ => rfl | ⟨1, _⟩ => rfl)

/-- The transpose of a 512 × 8 array at (e, f) is the array at (f, e). -/
theorem transpose512x8_at (x : FVec Ideal S512x8 .f32) (e : Fin 8) (f : Fin 512) :
    transpose S8x512 [1, 0] x transposes_S512x8_S8x512_1_0 (ix2 e f) = x (ix2 f e) :=
  transpose_apply _ _ _ (ix2 e f) (ix2 f e) (fun b => by
    match b with | ⟨0, _⟩ => rfl | ⟨1, _⟩ => rfl)

/-- The transpose of an 8 × 512 array at (f, e) is the array at (e, f). -/
theorem transpose8x512_at (x : FVec Ideal S8x512 .f32) (f : Fin 512) (e : Fin 8) :
    transpose S512x8 [1, 0] x transposes_S8x512_S512x8_1_0 (ix2 f e) = x (ix2 e f) :=
  transpose_apply _ _ _ (ix2 f e) (ix2 e f) (fun b => by
    match b with | ⟨0, _⟩ => rfl | ⟨1, _⟩ => rfl)

/-- A row of eight numbers spread down 512 rows reads, at (f, e), its e-th entry. -/
theorem rowSpread_at (v : FVec Ideal S8 .f32) (f : Fin 512) (e : Fin 8) :
    broadcastInDim S512x8 ![0, 1] bcast_S1x8_S512x8_0_1 (broadcastInDim S1x8 ![1] bcast_S8_S1x8_1 v) (ix2 f e) = v (ix1 e) := by
  rw [broadcastInDim_apply _ _ _ (ix2 f e) (ix2 (0 : Fin 1) e) (fun a => by
    match a with | ⟨0, _⟩ => rfl | ⟨1, _⟩ => rfl)]
  rw [broadcastInDim_apply _ _ _ (ix2 (0 : Fin 1) e) (ix1 e) (fun a => by
    match a with | ⟨0, _⟩ => rfl)]

/-- The cosine of a row of eight numbers, entry by entry. -/
theorem hostCos_at (v : FVec Ideal S8 .f32) (e : Fin 8) : Host.cos v (ix1 e) = Ideal.cos (v (ix1 e)) := rfl

/-- The 8 × 8 array of quotients of the constants one and eight holds one eighth everywhere. -/
theorem avgMat_at (e f : Fin 8) :
    (Host.divf (broadcastInDim S8x8 ![] bcast_S_S8x8 (constant (F := Ideal) S_ .f32 0x3F800000#32))
        (broadcastInDim S8x8 ![] bcast_S_S8x8 (constant (F := Ideal) S_ .f32 0x41000000#32)) : FVec Ideal S8x8 .f32) (ix2 e f)
      = eighth := by
  show Ideal.div (Ideal.ofBits .f32 0x3F800000#32) (Ideal.ofBits .f32 0x41000000#32) = _
  exact one_div_eight

/-! ## The Kronecker product with the identity, reshaped, at block coordinates -/

/-- Blocks 8 × 8: the product of the identity spread along axes 0 and 2 with mat spread along axes 1 and 3 of a
    16 × 8 × 16 × 8 array, reshaped to 128 × 128. Row-major position ((8 g + e) · 16 + g') · 8 + f is row 8 g + e, column
    8 g' + f; there the product reads the identity at (g, g') times mat at (e, f). -/
theorem kron88_at (eye : FVec Ideal S16x16 .f32) (mat : FVec Ideal S8x8 .f32) (g g' : Fin 16) (e : Fin 8) (f : Fin 8) :
    shapeCast S128x128
      (mulf (broadcastInDim S16x8x16x8 ![0, 1, 2, 3] bcast_S16x1x16x1_S16x8x16x8_0_1_2_3
              (broadcastInDim S16x1x16x1 ![0, 2] bcast_S16x16_S16x1x16x1_0_2 eye))
            (broadcastInDim S16x8x16x8 ![0, 1, 2, 3] bcast_S1x8x1x8_S16x8x16x8_0_1_2_3
              (broadcastInDim S1x8x1x8 ![1, 3] bcast_S8x8_S1x8x1x8_1_3 mat)))
      shapeCasts_S16x8x16x8_S128x128 (ix2 (lane g e) (lane g' f)) = eye (ix2 g g') * mat (ix2 e f) := by
  rw [shapeCast_apply _ _ _ (ix4 g e g' f) (by
    rw [Shape.rowMajor_val_four, Shape.rowMajor_val_two]
    show ((g.val * 8 + e.val) * 16 + g'.val) * 8 + f.val = (8 * g.val + e.val) * 128 + (8 * g'.val + f.val)
    omega)]
  rw [mulf_apply]
  rw [broadcastInDim_apply _ _ _ (ix4 g e g' f) (ix4 g (0 : Fin 1) g' (0 : Fin 1)) (fun a => by
    match a with | ⟨0, _⟩ => rfl | ⟨1, _⟩ => rfl | ⟨2, _⟩ => rfl | ⟨3, _⟩ => rfl)]
  rw [broadcastInDim_apply _ _ _ (ix4 g (0 : Fin 1) g' (0 : Fin 1)) (ix2 g g') (fun a => by
    match a with | ⟨0, _⟩ => rfl | ⟨1, _⟩ => rfl)]
  rw [broadcastInDim_apply _ _ _ (ix4 g e g' f) (ix4 (0 : Fin 1) e (0 : Fin 1) f) (fun a => by
    match a with | ⟨0, _⟩ => rfl | ⟨1, _⟩ => rfl | ⟨2, _⟩ => rfl | ⟨3, _⟩ => rfl)]
  rw [broadcastInDim_apply _ _ _ (ix4 (0 : Fin 1) e (0 : Fin 1) f) (ix2 e f) (fun a => by
    match a with | ⟨0, _⟩ => rfl | ⟨1, _⟩ => rfl)]

/-- Blocks 8 × 512, reshaped from 16 × 8 × 16 × 512 to 128 × 8192: row 8 g + e, column 512 g' + f. -/
theorem kron8x512_at (eye : FVec Ideal S16x16 .f32) (mat : FVec Ideal S8x512 .f32) (g g' : Fin 16) (e : Fin 8) (f : Fin 512) :
    shapeCast S128x8192
      (mulf (broadcastInDim S16x8x16x512 ![0, 1, 2, 3] bcast_S16x1x16x1_S16x8x16x512_0_1_2_3
              (broadcastInDim S16x1x16x1 ![0, 2] bcast_S16x16_S16x1x16x1_0_2 eye))
            (broadcastInDim S16x8x16x512 ![0, 1, 2, 3] bcast_S1x8x1x512_S16x8x16x512_0_1_2_3
              (broadcastInDim S1x8x1x512 ![1, 3] bcast_S8x512_S1x8x1x512_1_3 mat)))
      shapeCasts_S16x8x16x512_S128x8192 (ix2 (lane g e) (wide g' f)) = eye (ix2 g g') * mat (ix2 e f) := by
  rw [shapeCast_apply _ _ _ (ix4 g e g' f) (by
    rw [Shape.rowMajor_val_four, Shape.rowMajor_val_two]
    show ((g.val * 8 + e.val) * 16 + g'.val) * 512 + f.val = (8 * g.val + e.val) * 8192 + (512 * g'.val + f.val)
    omega)]
  rw [mulf_apply]
  rw [broadcastInDim_apply _ _ _ (ix4 g e g' f) (ix4 g (0 : Fin 1) g' (0 : Fin 1)) (fun a => by
    match a with | ⟨0, _⟩ => rfl | ⟨1, _⟩ => rfl | ⟨2, _⟩ => rfl | ⟨3, _⟩ => rfl)]
  rw [broadcastInDim_apply _ _ _ (ix4 g (0 : Fin 1) g' (0 : Fin 1)) (ix2 g g') (fun a => by
    match a with | ⟨0, _⟩ => rfl | ⟨1, _⟩ => rfl)]
  rw [broadcastInDim_apply _ _ _ (ix4 g e g' f) (ix4 (0 : Fin 1) e (0 : Fin 1) f) (fun a => by
    match a with | ⟨0, _⟩ => rfl | ⟨1, _⟩ => rfl | ⟨2, _⟩ => rfl | ⟨3, _⟩ => rfl)]
  rw [broadcastInDim_apply _ _ _ (ix4 (0 : Fin 1) e (0 : Fin 1) f) (ix2 e f) (fun a => by
    match a with | ⟨0, _⟩ => rfl | ⟨1, _⟩ => rfl)]

/-- Blocks 512 × 8, reshaped from 16 × 512 × 16 × 8 to 8192 × 128: row 512 g + e, column 8 g' + f. -/
theorem kron512x8_at (eye : FVec Ideal S16x16 .f32) (mat : FVec Ideal S512x8 .f32) (g g' : Fin 16) (e : Fin 512) (f : Fin 8) :
    shapeCast S8192x128
      (mulf (broadcastInDim S16x512x16x8 ![0, 1, 2, 3] bcast_S16x1x16x1_S16x512x16x8_0_1_2_3
              (broadcastInDim S16x1x16x1 ![0, 2] bcast_S16x16_S16x1x16x1_0_2 eye))
            (broadcastInDim S16x512x16x8 ![0, 1, 2, 3] bcast_S1x512x1x8_S16x512x16x8_0_1_2_3
              (broadcastInDim S1x512x1x8 ![1, 3] bcast_S512x8_S1x512x1x8_1_3 mat)))
      shapeCasts_S16x512x16x8_S8192x128 (ix2 (wide g e) (lane g' f)) = eye (ix2 g g') * mat (ix2 e f) := by
  rw [shapeCast_apply _ _ _ (ix4 g e g' f) (by
    rw [Shape.rowMajor_val_four, Shape.rowMajor_val_two]
    show ((g.val * 512 + e.val) * 16 + g'.val) * 8 + f.val = (512 * g.val + e.val) * 128 + (8 * g'.val + f.val)
    omega)]
  rw [mulf_apply]
  rw [broadcastInDim_apply _ _ _ (ix4 g e g' f) (ix4 g (0 : Fin 1) g' (0 : Fin 1)) (fun a => by
    match a with | ⟨0, _⟩ => rfl | ⟨1, _⟩ => rfl | ⟨2, _⟩ => rfl | ⟨3, _⟩ => rfl)]
  rw [broadcastInDim_apply _ _ _ (ix4 g (0 : Fin 1) g' (0 : Fin 1)) (ix2 g g') (fun a => by
    match a with | ⟨0, _⟩ => rfl | ⟨1, _⟩ => rfl)]
  rw [broadcastInDim_apply _ _ _ (ix4 g e g' f) (ix4 (0 : Fin 1) e (0 : Fin 1) f) (fun a => by
    match a with | ⟨0, _⟩ => rfl | ⟨1, _⟩ => rfl | ⟨2, _⟩ => rfl | ⟨3, _⟩ => rfl)]
  rw [broadcastInDim_apply _ _ _ (ix4 (0 : Fin 1) e (0 : Fin 1) f) (ix2 e f) (fun a => by
    match a with | ⟨0, _⟩ => rfl | ⟨1, _⟩ => rfl)]

/-! ## The five arrays

Each is what the host operations before the region leave in its buffer: the run of those operations, read at the
array's own buffer, is the Kronecker term above over the launch contents of one or two argument arrays. -/

variable (m : (ℓ : Loc nD τ sig) → Buf (Elt Ideal) ℓ) (c : Dev nD)

set_option maxHeartbeats 2000000 in
/-- The packed transposed input projection of the attention: block (g, g') is [g = g'] times the transposed weight. -/
theorem winT_at (g g' : Fin 16) (e f : Fin 8) :
    (V m c main_v9 : S128x128.Idx → EReal) (ix2 (lane g e) (lane g' f))
      = same g g' * (m ((c : Thread nD τ).loc main_arg1) : S8x8.Idx → EReal) (ix2 f e) := by
  have e1 : (V m c main_v9 : S128x128.Idx → EReal)
      = truncf .bf16 (shapeCast S128x128
          (mulf (broadcastInDim S16x8x16x8 ![0, 1, 2, 3] bcast_S16x1x16x1_S16x8x16x8_0_1_2_3
                  (broadcastInDim S16x1x16x1 ![0, 2] bcast_S16x16_S16x1x16x1_0_2 eyeT))
                (broadcastInDim S16x8x16x8 ![0, 1, 2, 3] bcast_S1x8x1x8_S16x8x16x8_0_1_2_3
                  (broadcastInDim S1x8x1x8 ![1, 3] bcast_S8x8_S1x8x1x8_1_3
                    (transpose S8x8 [1, 0] (m ((c : Thread nD τ).loc main_arg1)) transposes_S8x8_S8x8_1_0))))
          shapeCasts_S16x8x16x8_S128x128) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results_simp
    rfl
  rw [e1, truncf_apply, kron88_at, eyeT_at, transpose88_at]

set_option maxHeartbeats 2000000 in
/-- The packed transposed output projection of the attention. -/
theorem woutT_at (g g' : Fin 16) (e f : Fin 8) :
    (V m c main_v18 : S128x128.Idx → EReal) (ix2 (lane g e) (lane g' f))
      = same g g' * (m ((c : Thread nD τ).loc main_arg3) : S8x8.Idx → EReal) (ix2 f e) := by
  have e1 : (V m c main_v18 : S128x128.Idx → EReal)
      = truncf .bf16 (shapeCast S128x128
          (mulf (broadcastInDim S16x8x16x8 ![0, 1, 2, 3] bcast_S16x1x16x1_S16x8x16x8_0_1_2_3
                  (broadcastInDim S16x1x16x1 ![0, 2] bcast_S16x16_S16x1x16x1_0_2 eyeT))
                (broadcastInDim S16x8x16x8 ![0, 1, 2, 3] bcast_S1x8x1x8_S16x8x16x8_0_1_2_3
                  (broadcastInDim S1x8x1x8 ![1, 3] bcast_S8x8_S1x8x1x8_1_3
                    (transpose S8x8 [1, 0] (m ((c : Thread nD τ).loc main_arg3)) transposes_S8x8_S8x8_1_0))))
          shapeCasts_S16x8x16x8_S128x128) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results_simp
    rfl
  rw [e1, truncf_apply, kron88_at, eyeT_at, transpose88_at]

set_option maxHeartbeats 2000000 in
/-- The packed transposed first feed-forward map, with the cosine of the phase folded into the weight. -/
theorem w1T_at (g g' : Fin 16) (e : Fin 8) (f : Fin 512) :
    (V m c main_v31 : S128x8192.Idx → EReal) (ix2 (lane g e) (wide g' f))
      = same g g' * HMul.hMul (α := EReal) (β := EReal) ((m ((c : Thread nD τ).loc main_arg5) : S512x8.Idx → EReal) (ix2 f e))
          (Ideal.cos ((m ((c : Thread nD τ).loc main_arg4) : S8.Idx → EReal) (ix1 e))) := by
  have e1 : (V m c main_v31 : S128x8192.Idx → EReal)
      = truncf .bf16 (shapeCast S128x8192
          (mulf (broadcastInDim S16x8x16x512 ![0, 1, 2, 3] bcast_S16x1x16x1_S16x8x16x512_0_1_2_3
                  (broadcastInDim S16x1x16x1 ![0, 2] bcast_S16x16_S16x1x16x1_0_2 eyeT))
                (broadcastInDim S16x8x16x512 ![0, 1, 2, 3] bcast_S1x8x1x512_S16x8x16x512_0_1_2_3
                  (broadcastInDim S1x8x1x512 ![1, 3] bcast_S8x512_S1x8x1x512_1_3
                    (transpose S8x512 [1, 0]
                      (mulf (m ((c : Thread nD τ).loc main_arg5))
                        (broadcastInDim S512x8 ![0, 1] bcast_S1x8_S512x8_0_1 (broadcastInDim S1x8 ![1] bcast_S8_S1x8_1 (Host.cos (m ((c : Thread nD τ).loc main_arg4))))))
                      transposes_S512x8_S8x512_1_0))))
          shapeCasts_S16x8x16x512_S128x8192) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results_simp
    rfl
  rw [e1, truncf_apply, kron8x512_at, eyeT_at, transpose512x8_at, mulf_apply, rowSpread_at, hostCos_at]

set_option maxHeartbeats 2000000 in
/-- The packed transposed second feed-forward map. -/
theorem w2T_at (g g' : Fin 16) (f : Fin 512) (e : Fin 8) :
    (V m c main_v40 : S8192x128.Idx → EReal) (ix2 (wide g f) (lane g' e))
      = same g g' * (m ((c : Thread nD τ).loc main_arg7) : S8x512.Idx → EReal) (ix2 e f) := by
  have e1 : (V m c main_v40 : S8192x128.Idx → EReal)
      = truncf .bf16 (shapeCast S8192x128
          (mulf (broadcastInDim S16x512x16x8 ![0, 1, 2, 3] bcast_S16x1x16x1_S16x512x16x8_0_1_2_3
                  (broadcastInDim S16x1x16x1 ![0, 2] bcast_S16x16_S16x1x16x1_0_2 eyeT))
                (broadcastInDim S16x512x16x8 ![0, 1, 2, 3] bcast_S1x512x1x8_S16x512x16x8_0_1_2_3
                  (broadcastInDim S1x512x1x8 ![1, 3] bcast_S512x8_S1x512x1x8_1_3
                    (transpose S512x8 [1, 0] (m ((c : Thread nD τ).loc main_arg7)) transposes_S8x512_S512x8_1_0))))
          shapeCasts_S16x512x16x8_S8192x128) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results_simp
    rfl
  rw [e1, truncf_apply, kron512x8_at, eyeT_at, transpose8x512_at]

set_option maxHeartbeats 2000000 in
/-- The averaging matrix of the two normalisations: one eighth inside each diagonal 8 × 8 block, zero outside. -/
theorem avg_at (g g' : Fin 16) (e f : Fin 8) :
    (V m c main_v78 : S128x128.Idx → EReal) (ix2 (lane g e) (lane g' f)) = same g g' * eighth := by
  have e1 : (V m c main_v78 : S128x128.Idx → EReal)
      = shapeCast S128x128
          (mulf (broadcastInDim S16x8x16x8 ![0, 1, 2, 3] bcast_S16x1x16x1_S16x8x16x8_0_1_2_3
                  (broadcastInDim S16x1x16x1 ![0, 2] bcast_S16x16_S16x1x16x1_0_2 eyeT))
                (broadcastInDim S16x8x16x8 ![0, 1, 2, 3] bcast_S1x8x1x8_S16x8x16x8_0_1_2_3
                  (broadcastInDim S1x8x1x8 ![1, 3] bcast_S8x8_S1x8x1x8_1_3
                    (Host.divf (broadcastInDim S8x8 ![] bcast_S_S8x8 (constant (F := Ideal) S_ .f32 0x3F800000#32))
                      (broadcastInDim S8x8 ![] bcast_S_S8x8 (constant (F := Ideal) S_ .f32 0x41000000#32))))))
          shapeCasts_S16x8x16x8_S128x128 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results_simp
    rfl
  rw [e1, kron88_at, eyeT_at, avgMat_at]

end Cert.PackedWeights

end
-- ==== Proof.KernelValue.lean ====
/-
  The array the kernel's program returns, as one function of its thirteen argument arrays.

  Grid point t of the 32 stages rows 256 t … 256 t + 255 of the packed input (8192 rows of sixteen tokens) and the
  twelve launched weight arrays whole; what it writes back is, lane by lane, the token map of the lane's token
  (`BlockBody.body_at`, whose hypotheses are the launched arrays read at coordinates: `PackedWeights`,
  `PackedRows`). The 32 blocks tile the packed result, so the packed result is the token map of every packed
  token; the final reshape lays row 16 r + g of the 32 × 4096 tokens back at (b, s) with 4096 b + s = 16 r + g.
-/
import proofs.«171985_j65481071400382_2_alg».proof.Proof.Gen.KernelIdeal.Frame
import proofs.«171985_j65481071400382_2_alg».proof.Proof.TokenMath
import proofs.«171985_j65481071400382_2_alg».proof.Proof.BlockBody
import proofs.«171985_j65481071400382_2_alg».proof.Proof.BlockReads
import proofs.«171985_j65481071400382_2_alg».proof.Proof.PackedRows
import proofs.«171985_j65481071400382_2_alg».proof.Proof.PackedWeights
import Idealize.ShloMosaic.Lib.Pipeline.Value
import Idealize.ShloMosaic.Lib.StableHlo.Run

noncomputable section

namespace Cert.KernelValue

open Cert.KernelIdeal Cert.KernelIdeal.Gen Cert.TokenMath Cert.BlockReads Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ) (ρ : Dev nD → PrngReg)

/-! ## The packed result -/

/-- The weights, read off the launch memory. -/
def Pm (c : Dev nD) : Params :=
  params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The packed result: at row r, token g, feature e the token map of row 16 r + g of the 32 × 4096 tokens. -/
def packed (c : Dev nD) : S8192x128.Idx → EReal := fun j =>
  tokenOut (Pm m c) (row (m ((c : Thread nD τ).loc main_arg0)) (tokB (j 0) (laneEquiv.symm (j 1)).1) (tokS (j 0) (laneEquiv.symm (j 1)).1))
    (laneEquiv.symm (j 1)).2

theorem packed_at (c : Dev nD) (r : Fin 8192) (g : Fin 16) (e : Fin 8) :
    packed m c (ix2 r (lane g e)) = tokenOut (Pm m c) (row (m ((c : Thread nD τ).loc main_arg0)) (tokB r g) (tokS r g)) e := by
  have h : laneEquiv.symm (lane g e) = (g, e) := laneEquiv.symm_apply_apply (g, e)
  show tokenOut (Pm m c) (row _ (tokB r (laneEquiv.symm (lane g e)).1) (tokS r (laneEquiv.symm (lane g e)).1))
    (laneEquiv.symm (lane g e)).2 = _
  rw [h]

/-- What grid point t's body leaves in the result's buffer is block t of the packed result. -/
theorem payload_at (c : Dev nD) (t : Fin cfg0.N) (j : S256x128.Idx) :
    k0_pay1 (F := Ideal) (k0_pay2 (iblk m c 8 t))
        (k0_pay3 (iblk m c 0 t) (iblk m c 1 t) (iblk m c 2 t) (iblk m c 3 t) (iblk m c 8 t) (iblk m c 9 t) (iblk m c 10 t))
        (k0_pay4 (iblk m c 0 t) (iblk m c 1 t) (iblk m c 2 t) (iblk m c 3 t) (iblk m c 8 t) (iblk m c 9 t) (iblk m c 10 t))
        (k0_pay5 (iblk m c 4 t)) (iblk m c 5 t) (iblk m c 6 t) (iblk m c 7 t) (iblk m c 11 t) (iblk m c 12 t) j
      = packed m c (((cfg0.win 13).blk t).view.emb j) := by
  obtain ⟨p, l, rfl⟩ : ∃ (p : Fin 256) (l : Fin 128), j = ix2 p l := ⟨j 0, j 1, eq_ix2 j⟩
  obtain ⟨⟨g, e⟩, rfl⟩ := laneEquiv.surjective l
  refine Eq.trans ?_ ((congrArg (packed m c) (emb13_at t p (lane g e))).trans (packed_at m c (rowOf t p) g e)).symm
  refine (BlockBody.body_at (Pm m c) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (iblk m c 12 t)
    (fun g e g' f => (blk1_at m c t _).trans (PackedWeights.winT_at m c g g' e f))
    (fun g e => (blk2_at m c t _).trans (PackedRows.tha_at m c g e))
    (fun g f g' e => (blk3_at m c t _).trans (PackedWeights.woutT_at m c g g' f e))
    (fun g e g' f => (blk4_at m c t _).trans (PackedWeights.w1T_at m c g g' e f))
    (fun g f => (blk5_at m c t _).trans (PackedRows.b1_at m c g f))
    (fun g f g' e => (blk6_at m c t _).trans (PackedWeights.w2T_at m c g g' f e))
    (fun g e => (blk7_at m c t _).trans (PackedRows.b2_at m c g e))
    (fun g e g' f => (blk8_at m c t _).trans (PackedWeights.avg_at m c g g' e f))
    (fun g e => (blk9_at m c t _).trans (PackedRows.g1_at m c g e))
    (fun g e => (blk10_at m c t _).trans (PackedRows.c1_at m c g e))
    (fun g e => (blk11_at m c t _).trans (PackedRows.g2_at m c g e))
    (fun g e => (blk12_at m c t _).trans (PackedRows.c2_at m c g e))
    p g e).trans ?_
  refine congrArg (fun x => tokenOut (Pm m c) x e) (funext fun k => ?_)
  rw [blk0_at m c t p (lane g k)]
  exact PackedRows.x_at m c (rowOf t p) g k

/-- WHAT POINT t WRITES BACK is block t of the packed result. -/
theorem flushed_eq (c : Dev nD) (t : Fin cfg0.N) :
    (dats m 0 c).flushed 13 t = ((cfg0.win 13).blk t).view.read (Elt Ideal) (packed m c) := by
  show (cfg0.win 13).cut (grid0.coords t) ((dats m 0 c).after 13 t) = _
  rw [after0_13]
  unfold out0_13
  rw [View.canon_unit_zero hz]
  simp only [View.ld_unit_zero (S := S256x128) hz, View.ld_unit_zero (S := S128x128) hz, View.ld_unit_zero (S := S1x128) hz,
    View.ld_unit_zero (S := S128x8192) hz, View.ld_unit_zero (S := S1x8192) hz, View.ld_unit_zero (S := S8192x128) hz]
  funext j
  exact payload_at m c t j

/-! ## The blocks tile the packed result -/

theorem mem_blk13 (t : Fin cfg0.N) (i : S8192x128.Idx) :
    i ∈ ((cfg0.win 13).blk t).view.set ↔ ∀ a : Fin 2, win0_13.index t a * S256x128.size a ≤ (i a).val
      ∧ (i a).val < win0_13.index t a * S256x128.size a + S256x128.size a := by
  show i ∈ ((View.whole main_v79).slice (win0_13.rect t)).set ↔ _
  rw [View.set_slice_whole, Rect.mem_set_unit]
  exact Iff.rfl

/-- Row r of the packed result is in the block of point r / 256. -/
theorem cover13 (i : S8192x128.Idx) :
    ∃ t : Fin cfg0.N, (cfg0.win 13).flush t = true ∧ i ∈ ((cfg0.win 13).blk t).view.set := by
  have hi0 : (i 0).val < 8192 := (i 0).isLt
  have hi1 : (i 1).val < 128 := (i 1).isLt
  have hN : cfg0.N = 32 := N_0
  refine ⟨⟨(i 0).val / 256, by rw [hN]; omega⟩, flush0_13 _, ?_⟩
  rw [mem_blk13]
  obtain ⟨e0, e1⟩ := idx_w13 ⟨(i 0).val / 256, by rw [hN]; omega⟩
  intro a
  match a with
  | ⟨0, _⟩ =>
    show win0_13.index _ (0 : Fin 2) * 256 ≤ (i 0).val ∧ (i 0).val < win0_13.index _ (0 : Fin 2) * 256 + 256
    rw [e0]
    show (i 0).val / 256 * 256 ≤ (i 0).val ∧ (i 0).val < (i 0).val / 256 * 256 + 256
    omega
  | ⟨1, _⟩ =>
    show win0_13.index _ (1 : Fin 2) * 128 ≤ (i 1).val ∧ (i 1).val < win0_13.index _ (1 : Fin 2) * 128 + 128
    rw [e1]
    omega

/-- THE PACKED RESULT after the region. -/
theorem final13 (c : Dev nD) : (dats m 0 c).arrAt 13 cfg0.N = packed m c :=
  (dats m 0 c).arrAt_eq_of_cover 13 (packed m c) (fun t _ => flushed_eq m c t) cover13

/-! ## The result of @main -/

/-- Un-packing the packed result gives the token map of every row of the input. -/
theorem unpacked_eq (c : Dev nD) :
    shapeCast S32x4096x8 (packed m c) shapeCasts_S8192x128_S32x4096x8
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨b, s, e, rfl⟩ : ∃ (b : Fin 32) (s : Fin 4096) (e : Fin 8), i = ix3 b s e := ⟨i 0, i 1, i 2, eq_ix3 i⟩
  rw [PackedRows.unpack_at (packed m c) b s e, packed_at]
  obtain ⟨hb, hs⟩ := PackedRows.tok_of b s
  rw [hb, hs]
  rfl

/-- After the run the result buffer holds the un-packed packed result. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v80) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((h c).2 main_v80 (Pipeline.mem_restRefs_of main_v80 (by decide) (by decide))).trans ?_
  unfold Pipeline.afterTail₀
  show StableHlo.after hostOps1 _ (Proc.devRef .tc main_v80) = _
  after_results
  have hw : Pipeline.withArrays (cfgs 0).spec c (V0 m c) (fun w => (dats m 0 c).arrAt w (cfgs 0).N) (Proc.tc.devRef main_v79)
      = packed m c :=
    (Pipeline.withArrays_arr spec0 launch0.win.arr_inj c _ _ 13).trans (final13 m c)
  rw [← unpacked_eq m c]
  funext i
  exact congrArg (fun z : S8192x128.Idx → EReal => shapeCast S32x4096x8 z shapeCasts_S8192x128_S32x4096x8 i) hw

/-- The frame run re-posted: the result buffer at the token map of every row, the arguments unchanged. -/
theorem run : θ_run defs (onTc (τ := τ) (main (F := Ideal))) ⟨m, fun _ => 0, ρ⟩ fun r => ∀ c : Dev nD,
      r.2.mem ((c : Thread nD τ).loc main_v80) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelValue

end
-- ==== Proof.RefToken.lean ====
/-
  The reference program's result is the token map applied to every row.

  The reference is a chain of array operations; each is read here at one index and identified with the matching
  stage of the one-token map of the shared vocabulary: the input projection, the phase and the cosine, the output
  projection and the first residual; the first normalisation over the eight features (the mean as a sum times one
  eighth, the centred row, the mean of its squares, the offset, the reciprocal root, the scale and the shift); the
  cosine feed-forward block (the cosine scaled by the cosine of the phase, the linear map to 512 features with its
  bias, the clamp at zero, the linear map back with its bias) and the second residual; the second normalisation.
  Every contraction of the reference runs over the last coordinate of a row, so a stage at index (b, s, e) only
  reads earlier stages at indices (b, s, k): the same row of the argument array throughout.
-/
import proofs.«171985_j65481071400382_2_alg».proof.Proof.Gen.ReferenceIdeal.Read
import proofs.«171985_j65481071400382_2_alg».proof.Proof.TokenMath
import Idealize.ShloMosaic.Lib.ValueIdx
import Idealize.ShloMosaic.PureOps.Ideal.Laws

noncomputable section

namespace Cert.RefToken

open Cert.ReferenceIdeal Cert.ReferenceIdeal.Read Cert.TokenMath Idealize.ShloMosaic Idealize.ShloMosaic.ValueIdx
open scoped BigOperators

section Stages

variable (x0 : FVec Ideal S32x4096x8 .f32) (x1 : FVec Ideal S8x8 .f32) (x2 : FVec Ideal S8 .f32)
  (x3 : FVec Ideal S8x8 .f32) (x4 : FVec Ideal S8 .f32) (x5 : FVec Ideal S512x8 .f32) (x6 : FVec Ideal S512 .f32)
  (x7 : FVec Ideal S8x512 .f32) (x8 x9 x10 x11 x12 : FVec Ideal S8 .f32)

local notation "P" => params x1 x2 x3 x4 x5 x6 x7 x8 x9 x10 x11 x12

/-- Two indices of a literal shape of rank at most three are equal when their coordinates are. -/
local macro "idx_ext" : tactic => `(tactic| (funext a; first
  | (match a with | ⟨0, _⟩ => rfl | ⟨1, _⟩ => rfl | ⟨2, _⟩ => rfl)
  | (match a with | ⟨0, _⟩ => rfl | ⟨1, _⟩ => rfl)
  | (match a with | ⟨0, _⟩ => rfl)
  | exact a.elim0))

variable (b : Fin 32) (s : Fin 4096)

/-- The mean of eight numbers as the reference spells it: the sum started at the pattern of zero, divided by the
    pattern of eight. -/
theorem mean_spelled (f : Fin 8 → EReal) :
    Ideal.div (Ideal.ofBits .f32 0x00000000#32 + ∑ k, f k) (Ideal.ofBits .f32 0x41000000#32) = mean8 f := by
  rw [Ideal.ofBits_zero_f32, zero_add, div_eight]
  rfl

/-! ## The attention and the first residual -/

/-- The first contraction is the input projection of the row. -/
theorem v0_eq (e : Fin 8) :
    val_main_v0 (F := Ideal) x0 x1 (ix3 b s e) = attnIn P (row x0 b s) e := by
  rw [val_main_v0_apply]
  refine Finset.sum_congr rfl fun k _ => ?_
  rw [show lidx_main_v0 (ix3 b s e) k = ix3 b s k by idx_ext, show ridx_main_v0 (ix3 b s e) k = ix2 e k by idx_ext]
  rfl

/-- A vector of eight spread over every row is read at the feature coordinate: here the phase of the attention. -/
theorem v2_eq (x : FVec Ideal S8 .f32) (e : Fin 8) :
    val_main_v2 (F := Ideal) x (ix3 b s e) = x (ix1 e) := by
  rw [val_main_v2_apply, val_main_v1_apply]
  exact congrArg x (by idx_ext)

/-- The cosine of the projected row plus the phase. -/
theorem v4_eq (e : Fin 8) :
    val_main_v4 (F := Ideal) x0 x1 x2 (ix3 b s e) = attnQ P (row x0 b s) e := by
  rw [val_main_v4_apply, val_main_v3_apply, v0_eq x0 x1 x2 x3 x4 x5 x6 x7 x8 x9 x10 x11 x12, v2_eq]
  rfl

/-- The row plus its attention. -/
theorem v6_eq (e : Fin 8) :
    val_main_v6 (F := Ideal) x0 x1 x2 x3 (ix3 b s e) = resid1 P (row x0 b s) e := by
  rw [val_main_v6_apply, val_main_v5_apply]
  have h : ∀ k : Fin 8, val_main_v4 (F := Ideal) x0 x1 x2 (lidx_main_v5 (ix3 b s e) k) * x3 (ridx_main_v5 (ix3 b s e) k)
      = attnQ P (row x0 b s) k * (P).wout e k := fun k => by
    rw [show lidx_main_v5 (ix3 b s e) k = ix3 b s k by idx_ext, show ridx_main_v5 (ix3 b s e) k = ix2 e k by idx_ext,
      v4_eq x0 x1 x2 x3 x4 x5 x6 x7 x8 x9 x10 x11 x12]
    rfl
  rw [Finset.sum_congr rfl fun k _ => h k]
  rfl

/-! ## The first normalisation -/

/-- The mean of the row's eight features: their sum, started at zero, divided by eight. -/
theorem v10_eq (z : Fin 1) :
    val_main_v10 (F := Ideal) x0 x1 x2 x3 (ix3 b s z) = mean8 (resid1 P (row x0 b s)) := by
  rw [val_main_v10_apply, val_main_v8_apply, val_main_v7_apply, val_main_v9_apply,
    val_main_cst_0_apply, val_main_cst_apply]
  have h : ∀ k : Fin 8, val_main_v6 (F := Ideal) x0 x1 x2 x3 (idx_main_v7 (idx_main_v8 (ix3 b s z)) k)
      = resid1 P (row x0 b s) k := fun k => by
    rw [show idx_main_v7 (idx_main_v8 (ix3 b s z)) k = ix3 b s k by idx_ext]
    exact v6_eq x0 x1 x2 x3 x4 x5 x6 x7 x8 x9 x10 x11 x12 b s k
  rw [Finset.sum_congr rfl fun k _ => h k]
  exact mean_spelled _

/-- The centred row … -/
theorem v12_eq (e : Fin 8) :
    val_main_v12 (F := Ideal) x0 x1 x2 x3 (ix3 b s e) = resid1 P (row x0 b s) e - mean8 (resid1 P (row x0 b s)) := by
  rw [val_main_v12_apply, val_main_v11_apply, show idx_main_v11 (ix3 b s e) = ix3 b s (0 : Fin 1) by idx_ext,
    v10_eq x0 x1 x2 x3 x4 x5 x6 x7 x8 x9 x10 x11 x12, v6_eq x0 x1 x2 x3 x4 x5 x6 x7 x8 x9 x10 x11 x12]
  rfl

/-- … which the reference forms a second time from the same mean. -/
theorem v19_eq (e : Fin 8) :
    val_main_v19 (F := Ideal) x0 x1 x2 x3 (ix3 b s e) = resid1 P (row x0 b s) e - mean8 (resid1 P (row x0 b s)) := by
  rw [val_main_v19_apply, val_main_v18_apply, show idx_main_v18 (ix3 b s e) = ix3 b s (0 : Fin 1) by idx_ext,
    v10_eq x0 x1 x2 x3 x4 x5 x6 x7 x8 x9 x10 x11 x12, v6_eq x0 x1 x2 x3 x4 x5 x6 x7 x8 x9 x10 x11 x12]
  rfl

/-- The mean of the squares of the centred row. -/
theorem v17_eq (z : Fin 1) :
    val_main_v17 (F := Ideal) x0 x1 x2 x3 (ix3 b s z)
      = mean8 (fun k => (resid1 P (row x0 b s) k - mean8 (resid1 P (row x0 b s))) * (resid1 P (row x0 b s) k - mean8 (resid1 P (row x0 b s)))) := by
  rw [val_main_v17_apply, val_main_v15_apply, val_main_v14_apply, val_main_v16_apply,
    val_main_cst_2_apply, val_main_cst_1_apply]
  have h : ∀ k : Fin 8, val_main_v13 (F := Ideal) x0 x1 x2 x3 (idx_main_v14 (idx_main_v15 (ix3 b s z)) k)
      = (resid1 P (row x0 b s) k - mean8 (resid1 P (row x0 b s))) * (resid1 P (row x0 b s) k - mean8 (resid1 P (row x0 b s))) := fun k => by
    rw [show idx_main_v14 (idx_main_v15 (ix3 b s z)) k = ix3 b s k by idx_ext, val_main_v13_apply,
      v12_eq x0 x1 x2 x3 x4 x5 x6 x7 x8 x9 x10 x11 x12]
    rfl
  rw [Finset.sum_congr rfl fun k _ => h k]
  exact mean_spelled _

/-- The scale of the normalisation, read at the feature coordinate … -/
theorem v26_eq (x : FVec Ideal S8 .f32) (e : Fin 8) :
    val_main_v26 (F := Ideal) x (ix3 b s e) = x (ix1 e) := by
  rw [val_main_v26_apply, val_main_v25_apply]
  exact congrArg x (by idx_ext)

/-- … and its shift. -/
theorem v29_eq (x : FVec Ideal S8 .f32) (e : Fin 8) :
    val_main_v29 (F := Ideal) x (ix3 b s e) = x (ix1 e) := by
  rw [val_main_v29_apply, val_main_v28_apply]
  exact congrArg x (by idx_ext)

/-- The normalisation of the row: the centred row times the reciprocal root of the variance plus the offset, scaled
    and shifted. -/
theorem v30_eq (e : Fin 8) :
    val_main_v30 (F := Ideal) x0 x1 x2 x3 x9 x10 (ix3 b s e) = hidden P (row x0 b s) e := by
  rw [val_main_v30_apply, val_main_v27_apply, val_main_v24_apply, val_main_v23_apply,
    val_main_v22_apply, val_main_v21_apply, val_main_v20_apply, val_main_cst_3_apply,
    show idx_main_v23 (ix3 b s e) = ix3 b s (0 : Fin 1) by idx_ext,
    v17_eq x0 x1 x2 x3 x4 x5 x6 x7 x8 x9 x10 x11 x12, v19_eq x0 x1 x2 x3 x4 x5 x6 x7 x8 x9 x10 x11 x12, v26_eq, v29_eq]
  rfl

/-! ## The feed-forward block and the second residual -/

/-- The cosine of the normalised row, scaled by the cosine of the phase. -/
theorem v35_eq (e : Fin 8) :
    val_main_v35 (F := Ideal) x0 x1 x2 x3 x4 x9 x10 (ix3 b s e) = ffnQ P (row x0 b s) e := by
  rw [val_main_v35_apply, val_main_v31_apply, v30_eq x0 x1 x2 x3 x4 x5 x6 x7 x8 x9 x10 x11 x12, val_main_v34_apply, val_main_v33_apply, val_main_v32_apply,
    show idx_main_v33 (idx_main_v34 (ix3 b s e)) = ix1 e by idx_ext]
  rfl

/-- The bias of the first linear map, read at the hidden coordinate. -/
theorem v38_eq (x : FVec Ideal S512 .f32) (f : Fin 512) :
    val_main_v38 (F := Ideal) x (ix3 b s f) = x (ix1 f) := by
  rw [val_main_v38_apply, val_main_v37_apply]
  exact congrArg x (by idx_ext)

/-- The first linear map with its bias. -/
theorem v39_eq (f : Fin 512) :
    val_main_v39 (F := Ideal) x0 x1 x2 x3 x4 x5 x6 x9 x10 (ix3 b s f) = ffnMid P (row x0 b s) f := by
  rw [val_main_v39_apply, val_main_v36_apply, v38_eq]
  have h : ∀ k : Fin 8, val_main_v35 (F := Ideal) x0 x1 x2 x3 x4 x9 x10 (lidx_main_v36 (ix3 b s f) k)
      * x5 (ridx_main_v36 (ix3 b s f) k) = ffnQ P (row x0 b s) k * (P).w1 f k := fun k => by
    rw [show lidx_main_v36 (ix3 b s f) k = ix3 b s k by idx_ext, show ridx_main_v36 (ix3 b s f) k = ix2 f k by idx_ext,
      v35_eq x0 x1 x2 x3 x4 x5 x6 x7 x8 x9 x10 x11 x12]
    rfl
  rw [Finset.sum_congr rfl fun k _ => h k]
  rfl

/-- The clamp below at zero. -/
theorem v40_eq (f : Fin 512) :
    val_main_v40 (F := Ideal) x0 x1 x2 x3 x4 x5 x6 x9 x10 (ix3 b s f) = max (ffnMid P (row x0 b s) f) 0 := by
  rw [val_main_v40_apply, v39_eq x0 x1 x2 x3 x4 x5 x6 x7 x8 x9 x10 x11 x12, val_main_call0_v0_apply, val_main_call0_cst_apply, Ideal.ofBits_def,
    Ideal.ofBits_zero_f32]
  rfl

/-- The bias of the second linear map, read at the feature coordinate. -/
theorem v43_eq (x : FVec Ideal S8 .f32) (e : Fin 8) :
    val_main_v43 (F := Ideal) x (ix3 b s e) = x (ix1 e) := by
  rw [val_main_v43_apply, val_main_v42_apply]
  exact congrArg x (by idx_ext)

/-- The second linear map with its bias. -/
theorem v44_eq (e : Fin 8) :
    val_main_v44 (F := Ideal) x0 x1 x2 x3 x4 x5 x6 x7 x8 x9 x10 (ix3 b s e) = ffnOut P (row x0 b s) e := by
  rw [val_main_v44_apply, val_main_v41_apply, v43_eq]
  have h : ∀ k : Fin 512, val_main_v40 (F := Ideal) x0 x1 x2 x3 x4 x5 x6 x9 x10 (lidx_main_v41 (ix3 b s e) k)
      * x7 (ridx_main_v41 (ix3 b s e) k) = max (ffnMid P (row x0 b s) k) 0 * (P).w2 e k := fun k => by
    rw [show lidx_main_v41 (ix3 b s e) k = ix3 b s k by idx_ext, show ridx_main_v41 (ix3 b s e) k = ix2 e k by idx_ext,
      v40_eq x0 x1 x2 x3 x4 x5 x6 x7 x8 x9 x10 x11 x12]
    rfl
  rw [Finset.sum_congr rfl fun k _ => h k]
  rfl

/-- The normalised row plus its feed-forward block. -/
theorem v45_eq (e : Fin 8) :
    val_main_v45 (F := Ideal) x0 x1 x2 x3 x4 x5 x6 x7 x8 x9 x10 (ix3 b s e) = resid2 P (row x0 b s) e := by
  rw [val_main_v45_apply, v30_eq x0 x1 x2 x3 x4 x5 x6 x7 x8 x9 x10 x11 x12, v44_eq x0 x1 x2 x3 x4 x5 x6 x7 x8 x9 x10 x11 x12]
  rfl

/-! ## The second normalisation -/

/-- The mean of the row's eight features: their sum, started at zero, divided by eight. -/
theorem v49_eq (z : Fin 1) :
    val_main_v49 (F := Ideal) x0 x1 x2 x3 x4 x5 x6 x7 x8 x9 x10 (ix3 b s z) = mean8 (resid2 P (row x0 b s)) := by
  rw [val_main_v49_apply, val_main_v47_apply, val_main_v46_apply, val_main_v48_apply,
    val_main_cst_5_apply, val_main_cst_4_apply]
  have h : ∀ k : Fin 8, val_main_v45 (F := Ideal) x0 x1 x2 x3 x4 x5 x6 x7 x8 x9 x10 (idx_main_v46 (idx_main_v47 (ix3 b s z)) k)
      = resid2 P (row x0 b s) k := fun k => by
    rw [show idx_main_v46 (idx_main_v47 (ix3 b s z)) k = ix3 b s k by idx_ext]
    exact v45_eq x0 x1 x2 x3 x4 x5 x6 x7 x8 x9 x10 x11 x12 b s k
  rw [Finset.sum_congr rfl fun k _ => h k]
  exact mean_spelled _

/-- The centred row … -/
theorem v51_eq (e : Fin 8) :
    val_main_v51 (F := Ideal) x0 x1 x2 x3 x4 x5 x6 x7 x8 x9 x10 (ix3 b s e) = resid2 P (row x0 b s) e - mean8 (resid2 P (row x0 b s)) := by
  rw [val_main_v51_apply, val_main_v50_apply, show idx_main_v50 (ix3 b s e) = ix3 b s (0 : Fin 1) by idx_ext,
    v49_eq x0 x1 x2 x3 x4 x5 x6 x7 x8 x9 x10 x11 x12, v45_eq x0 x1 x2 x3 x4 x5 x6 x7 x8 x9 x10 x11 x12]
  rfl

/-- … which the reference forms a second time from the same mean. -/
theorem v58_eq (e : Fin 8) :
    val_main_v58 (F := Ideal) x0 x1 x2 x3 x4 x5 x6 x7 x8 x9 x10 (ix3 b s e) = resid2 P (row x0 b s) e - mean8 (resid2 P (row x0 b s)) := by
  rw [val_main_v58_apply, val_main_v57_apply, show idx_main_v57 (ix3 b s e) = ix3 b s (0 : Fin 1) by idx_ext,
    v49_eq x0 x1 x2 x3 x4 x5 x6 x7 x8 x9 x10 x11 x12, v45_eq x0 x1 x2 x3 x4 x5 x6 x7 x8 x9 x10 x11 x12]
  rfl

/-- The mean of the squares of the centred row. -/
theorem v56_eq (z : Fin 1) :
    val_main_v56 (F := Ideal) x0 x1 x2 x3 x4 x5 x6 x7 x8 x9 x10 (ix3 b s z)
      = mean8 (fun k => (resid2 P (row x0 b s) k - mean8 (resid2 P (row x0 b s))) * (resid2 P (row x0 b s) k - mean8 (resid2 P (row x0 b s)))) := by
  rw [val_main_v56_apply, val_main_v54_apply, val_main_v53_apply, val_main_v55_apply,
    val_main_cst_7_apply, val_main_cst_6_apply]
  have h : ∀ k : Fin 8, val_main_v52 (F := Ideal) x0 x1 x2 x3 x4 x5 x6 x7 x8 x9 x10 (idx_main_v53 (idx_main_v54 (ix3 b s z)) k)
      = (resid2 P (row x0 b s) k - mean8 (resid2 P (row x0 b s))) * (resid2 P (row x0 b s) k - mean8 (resid2 P (row x0 b s))) := fun k => by
    rw [show idx_main_v53 (idx_main_v54 (ix3 b s z)) k = ix3 b s k by idx_ext, val_main_v52_apply,
      v51_eq x0 x1 x2 x3 x4 x5 x6 x7 x8 x9 x10 x11 x12]
    rfl
  rw [Finset.sum_congr rfl fun k _ => h k]
  exact mean_spelled _

/-- The scale of the normalisation, read at the feature coordinate … -/
theorem v65_eq (x : FVec Ideal S8 .f32) (e : Fin 8) :
    val_main_v65 (F := Ideal) x (ix3 b s e) = x (ix1 e) := by
  rw [val_main_v65_apply, val_main_v64_apply]
  exact congrArg x (by idx_ext)

/-- … and its shift. -/
theorem v68_eq (x : FVec Ideal S8 .f32) (e : Fin 8) :
    val_main_v68 (F := Ideal) x (ix3 b s e) = x (ix1 e) := by
  rw [val_main_v68_apply, val_main_v67_apply]
  exact congrArg x (by idx_ext)

/-- The normalisation of the row: the centred row times the reciprocal root of the variance plus the offset, scaled
    and shifted. -/
theorem v69_eq (e : Fin 8) :
    val_main_v69 (F := Ideal) x0 x1 x2 x3 x4 x5 x6 x7 x8 x9 x10 x11 x12 (ix3 b s e) = tokenOut P (row x0 b s) e := by
  rw [val_main_v69_apply, val_main_v66_apply, val_main_v63_apply, val_main_v62_apply,
    val_main_v61_apply, val_main_v60_apply, val_main_v59_apply, val_main_cst_8_apply,
    show idx_main_v62 (ix3 b s e) = ix3 b s (0 : Fin 1) by idx_ext,
    v56_eq x0 x1 x2 x3 x4 x5 x6 x7 x8 x9 x10 x11 x12, v58_eq x0 x1 x2 x3 x4 x5 x6 x7 x8 x9 x10 x11 x12, v65_eq, v68_eq]
  rfl

end Stages

/-- The reference program's result is the token map applied to every row of the argument array. -/
theorem ref_eq (x0 : FVec Ideal S32x4096x8 .f32) (x1 : FVec Ideal S8x8 .f32) (x2 : FVec Ideal S8 .f32)
    (x3 : FVec Ideal S8x8 .f32) (x4 : FVec Ideal S8 .f32) (x5 : FVec Ideal S512x8 .f32) (x6 : FVec Ideal S512 .f32)
    (x7 : FVec Ideal S8x512 .f32) (x8 x9 x10 x11 x12 : FVec Ideal S8 .f32) :
    val_main_v69 (F := Ideal) x0 x1 x2 x3 x4 x5 x6 x7 x8 x9 x10 x11 x12 = G x0 x1 x2 x3 x4 x5 x6 x7 x8 x9 x10 x11 x12 := by
  funext i
  rw [eq_ix3 i]
  exact v69_eq x0 x1 x2 x3 x4 x5 x6 x7 x8 x9 x10 x11 x12 (i 0) (i 1) (i 2)

end Cert.RefToken

end
-- ==== Proof.lean ====
/-
  The certificate: a packed Pallas transformer block against its plain jnp reference, equal over the extended reals.

  The kernel packs sixteen tokens of eight features into each 128-lane row and replaces every per-token linear map by
  a product with a block-diagonal matrix (sixteen copies of the small weight on the diagonal), the mean over a token's
  eight features by a product with the block-averaging matrix, and folds the cosine of the feed-forward phase into the
  first feed-forward weight. Read at the ideal instance (formats changes the identity, products exact sums) both
  programs compute, for every row of eight features, the same token map (`TokenMath.tokenOut`):
  * the kernel's program returns `TokenMath.G` of its arguments (`KernelValue.run`);
  * the reference's generated run ends at a term that is `TokenMath.G` of its arguments (`RefToken.ref_eq`).
  The laws used are those of the extended reals' sum and product that hold at the infinities too — a product with
  zero is zero, multiplication by the real one eighth distributes over a sum — so the precondition is never opened.
  The three frames are the generated ones (the reference's from its generated run); the ideal pass rewrote nothing,
  so the idealization claim is trivial.
-/
import proofs.«171985_j65481071400382_2_alg».proof.Defs
import proofs.«171985_j65481071400382_2_alg».proof.Proof.Gen.Kernel
import proofs.«171985_j65481071400382_2_alg».proof.Proof.Gen.Kernel.Skeleton
import proofs.«171985_j65481071400382_2_alg».proof.Proof.Gen.Kernel.Launch
import proofs.«171985_j65481071400382_2_alg».proof.Proof.Gen.Kernel.Points
import proofs.«171985_j65481071400382_2_alg».proof.Proof.Gen.Kernel.Frame
import proofs.«171985_j65481071400382_2_alg».proof.Proof.Gen.KernelIdeal
import proofs.«171985_j65481071400382_2_alg».proof.Proof.Gen.KernelIdeal.Skeleton
import proofs.«171985_j65481071400382_2_alg».proof.Proof.Gen.KernelIdeal.Launch
import proofs.«171985_j65481071400382_2_alg».proof.Proof.Gen.KernelIdeal.Points
import proofs.«171985_j65481071400382_2_alg».proof.Proof.Gen.KernelIdeal.Frame
import proofs.«171985_j65481071400382_2_alg».proof.Proof.Gen.ReferenceIdeal
import proofs.«171985_j65481071400382_2_alg».proof.Proof.Gen.ReferenceIdeal.Run
import proofs.«171985_j65481071400382_2_alg».proof.Proof.Gen.ReferenceIdeal.Read
import proofs.«171985_j65481071400382_2_alg».proof.Proof.Gen.Pre_finite_inputs
import proofs.«171985_j65481071400382_2_alg».proof.Proof.KernelValue
import proofs.«171985_j65481071400382_2_alg».proof.Proof.RefToken
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at the token map of every row of the input. -/
theorem algebraic : Cert.algebraic_KernelIdeal_ReferenceIdeal := by
  intro m ρ m' ρ' _ hagree
  refine ⟨fun c => Cert.TokenMath.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v69_eq, Cert.RefToken.ref_eq, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
